-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S2x1x1 : Shape := ⟨3, ![2, 1, 1]⟩
abbrev S8192x128 : Shape := ⟨2, ![8192, 128]⟩
abbrev S1x1x1 : Shape := ⟨3, ![1, 1, 1]⟩
abbrev S1x1 : Shape := ⟨2, ![1, 1]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 26
  | .vmem => 14
  | .smem => 0
  | _ => 0

abbrev bufTy : (tb : Table) → Fin (tcTables nBuf tb) → BufTy
  | .hbm, ⟨0, _⟩ => ⟨S67108864, .f32⟩
  | .hbm, ⟨1, _⟩ => ⟨S524288x128, .f32⟩
  | .hbm, ⟨2, _⟩ => ⟨S2x1x1, .f32⟩
  | .hbm, ⟨3, _⟩ => ⟨S2x1x1, .f32⟩
  | .hbm, ⟨4, _⟩ => ⟨S1x1x1, .f32⟩
  | .hbm, ⟨5, _⟩ => ⟨S_, .f32⟩
  | .hbm, ⟨6, _⟩ => ⟨S1x1x1, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S524288x128, .f32⟩
  | .hbm, ⟨25, _⟩ => ⟨S67108864, .f32⟩
  | .local _ .vmem, ⟨0, _⟩ => ⟨S8192x128, .f32⟩
  | .local _ .vmem, ⟨1, _⟩ => ⟨S8192x128, .f32⟩
  | .local _ .vmem, ⟨2, _⟩ => ⟨S1x1x1, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S1x1, .f32⟩
  | .local _ .vmem, ⟨8, _⟩ => ⟨S8192x128, .f32⟩
  | .local _ .vmem, ⟨9, _⟩ => ⟨S8192x128, .f32⟩
  | .local _ .vmem, ⟨10, _⟩ => ⟨S1x1, .f32⟩
  | .local _ .vmem, ⟨11, _⟩ => ⟨S1x1, .f32⟩
  | .local _ .vmem, ⟨12, _⟩ => ⟨S8192x128, .f32⟩
  | .local _ .vmem, ⟨13, _⟩ => ⟨S8192x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S67108864_S524288x128 : S67108864.ShapeCasts S524288x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  broadcasts_S1x1_S8192x128 : S1x1.Broadcasts S8192x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  shapeCasts_S_S1x1 : S_.ShapeCasts S1x1
  shapeCasts_S524288x128_S67108864 : S524288x128.ShapeCasts S67108864
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S524288x128.size a
  hwx1_3 : ∀ i : grid1.Coords, EltTy.bits .f32 = 32 ∨ (Rect.block (s := S524288x128) S8192x128.size (cc1_transform_3 i) (hinb1_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S67108864 : Shape := ⟨1, ![67108864]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S_, .f32⟩
  | .hbm, ⟨2, _⟩ => ⟨S_, .f32⟩
  | .hbm, ⟨3, _⟩ => ⟨S67108864, .f32⟩
  | .hbm, ⟨4, _⟩ => ⟨S67108864, .f32⟩
  | .hbm, ⟨5, _⟩ => ⟨S67108864, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S67108864, .f32⟩
  | .hbm, ⟨14, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S67108864_S_d0 : S67108864.ReducesTo [0] S_
  h_S_ : 0 < S_.numel
  bcast_S_S67108864 : S_.BroadcastsInDim S67108864 (![] : Fin 0 → Fin S67108864.rank)

variable [Facts₀]

class Facts : Prop extends Facts₀ where

variable [Facts]
-- ==== Proof.Kernel.R0Runs.lean ====
/-
  The reduction kernel, point by point: what one call of its body does to its buffers.

  The grid is 2 x 32: 64 points, point t working on tile t of the 524288 x 128 matrix (8192 rows each); the second
  coordinate of point t is t mod 32. The body keeps two one-entry scratch buffers, a running maximum and a running sum.
  Where the second coordinate is 0 it first overwrites them with the start values; at every point it loads the tile,
  raises the maximum, rescales and extends the sum, and stores both back; where the second coordinate is 31 it also
  stores the pair into the two one-entry output blocks. So there are three kinds of point: a half's first (reset, no
  output), a middle one (neither), a half's last (output). A point cannot be both first and last.
  For each kind the body's run is stated on arbitrary whole buffers: the tile's buffer is read and kept, the scratch
  buffers end at what the stores wrote (found by running the body), an output block that is not stored is handed
  back untouched.
-/
import proofs.«151102_j84679575208560_2_alg».proof.Proof.Gen.Kernel.Launch
import proofs.«151102_j84679575208560_2_alg».proof.Proof.Gen.Kernel.Skeleton
import proofs.«151102_j84679575208560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first tile of a half": the body's first condition, from the grid coordinates. -/
abbrev cond0_0 (i : grid0.Coords) : Prop := (Scalar.cmpi .ne (Scalar.extui (Scalar.cmpi .eq (BitVec.ofNat 32 (i 1).val) 0#32)) 0#32) = 1#1
/-- It holds exactly at the points that are 0 modulo 32. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of a half": the body's second condition. -/
abbrev cond0_1 (i : grid0.Coords) : Prop := k0_cond2 i = 1#1
/-- It holds exactly at the points that are 31 modulo 32. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the output blocks are stored -/

/-- The tile's window is used at every point. -/
theorem liveAt0_0 : ∀ t : Fin cfg0.N, cfg0.idle 0 (grid0.coords t) = false := by decide +kernel
/-- Away from a half's last tile nothing is stored into the first output block, and it is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At a half's last tile it is stored. -/
theorem liveAt0_1 : ∀ t : Fin cfg0.N, cond0_1 (grid0.coords t) → cfg0.idle 1 (grid0.coords t) = false := by decide +kernel
/-- The same of the second output block. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is called with -/

/-- The current buffer of each window at point `t`, and that it is a whole buffer. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The two scratch buffers: the running maximum and the running sum. -/
abbrev scM0_0 : Memref sig .tc .vmem S1x1 .f32 := Memref.whole cc0_scratch0
abbrev scM0_1 : Memref sig .tc .vmem S1x1 .f32 := Memref.whole cc0_scratch1
/-- Views through which the contents of an output block and of a scratch buffer are stated. -/
abbrev VO0_1 : View sig .tc .vmem S1x1x1 .f32 := (Memref.whole cc0_stg1_0 : Memref sig .tc .vmem S1x1x1 .f32).view
abbrev VO0_2 : View sig .tc .vmem S1x1x1 .f32 := (Memref.whole cc0_stg2_0 : Memref sig .tc .vmem S1x1x1 .f32).view
abbrev VS0_0 : View sig .tc .vmem S1x1 .f32 := scM0_0.view
abbrev VS0_1 : View sig .tc .vmem S1x1 .f32 := scM0_1.view

/-! ## The body's run, by the kind of point -/

set_option maxHeartbeats 4000000 in
/-- A half's FIRST tile. The scratch buffers may hold anything (they are overwritten with the start values before they
    are read); the output blocks are not touched. The pieces the two scratch buffers end with are found by the run. -/
noncomputable def kernelRun0_A (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) :
    Σ' (LS0 : List (View.Piece (Elt F) S1x1 .f32)), { LS1 : List (View.Piece (Elt F) S1x1 .f32) //
      ∀ (xi1 xi2 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A MIDDLE tile. The scratch buffers hold what the tile before left (`xs0`, `xs1`); the output blocks are not touched. -/
noncomputable def kernelRun0_B (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) :
    Σ' (LS0 : List (View.Piece (Elt F) S1x1 .f32)), { LS1 : List (View.Piece (Elt F) S1x1 .f32) //
      ∀ (xi1 xi2 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A half's LAST tile. As a middle tile, and the pair is also stored into the two output blocks, whose buffers may hold
    anything before. -/
noncomputable def kernelRun0_C (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    Σ' (L1 : List (View.Piece (Elt F) S1x1x1 .f32)) (L2 : List (View.Piece (Elt F) S1x1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Hand

end
-- ==== Proof.Kernel.R0.lean ====
/-
  The reduction kernel's region as a whole: what its buffers hold after each of the 64 points.

  For ANY contents `V` of the core's buffers when the region is entered: the tile a point reads (`iblk0`); what each kind of
  point leaves in the scratch buffers and the output blocks, read back from the pieces the body's run found; then, by
  recursion on the point, what the four buffers hold after point n (`outsAt0`): a half's first tile starts afresh, every
  other tile continues from what the tile before left in the scratch buffers. The region's invariant carries the two
  scratch buffers at exactly those contents from point to point (`PhiS`), beside the core's other scoped buffers and its
  generator register, which the body never touches. With this proof data the body obligation holds at every point.
-/
import proofs.«151102_j84679575208560_2_alg».proof.Proof.Kernel.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The tile a point reads -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's current buffer holds the tile at every point, for any proof data whose array is `V`'s and whose body leaves
    the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The scoped buffers beside the scratch -/

/-- The core's scoped buffers that this kernel neither stages nor uses (the other kernel's staging buffers), each whole at
    some contents: they ride through the region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region's launch hands the body beside the windows: the two scratch buffers at some contents, the other scoped
    buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 c) ∗ (∃ r, prngReg c r)) := by
  unfold Pipeline.ΦA other0; rw [scopedRest0_eq]; simp only [scM0_0, scM0_1, owns_whole]; try rfl

/-! ## What each kind of point leaves -/

/-- Placeholders for an output block at a point that does not store it: nothing consults them (the block is neither
    written back there nor read later). -/
def junk0_1 : Vec F S1x1x1 .f32 := VO0_1.read (Elt F) (VO0_1.writes (Elt F) VO0_1.junk ([] : List (View.Piece (Elt F) S1x1x1 .f32)))
def junk0_2 : Vec F S1x1x1 .f32 := VO0_2.read (Elt F) (VO0_2.writes (Elt F) VO0_2.junk ([] : List (View.Piece (Elt F) S1x1x1 .f32)))

/-- A half's first tile: the pieces stored into each scratch buffer cover it; what they leave, read back. -/
theorem scover0_A_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) (y : S1x1.Idx) :
    ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S1x1.size (by sl_kernel_rfl) y
theorem scover0_A_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) (y : S1x1.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S1x1.size (by sl_kernel_rfl) y
def sout0_A_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) : Vec F S1x1 .f32 :=
  VS0_0.read (Elt F) (VS0_0.writes (Elt F) VS0_0.junk (kernelRun0_A c i arg2 harg2 arg3 harg3 arg4 harg4 arg5 harg5 arg6 harg6 hc0 hc1 x0).1)
def sout0_A_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) : Vec F S1x1 .f32 :=
  VS0_1.read (Elt F) (VS0_1.writes (Elt F) VS0_1.junk (kernelRun0_A c i arg2 harg2 arg3 harg3 arg4 harg4 arg5 harg5 arg6 harg6 hc0 hc1 x0).2.1)

/-- A middle tile: the same, from what the tile before left. -/
theorem scover0_B_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) (y : S1x1.Idx) :
    ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S1x1.size (by sl_kernel_rfl) y
theorem scover0_B_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) (y : S1x1.Idx) :
    ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S1x1.size (by sl_kernel_rfl) y
def sout0_B_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 xs0 xs1).1)
def sout0_B_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 hc0 hc1 x0 xs0 xs1).2.1)

/-- A half's last tile: the same, and the two output blocks. -/
theorem cover0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1x1.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S1x1x1.size (by sl_kernel_rfl) y
theorem cover0_C_2 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1x1.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S1x1x1.size (by sl_kernel_rfl) y
theorem scover0_C_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S1x1.size (by sl_kernel_rfl) y
theorem scover0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S1x1.size (by sl_kernel_rfl) y
def out0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1x1 .f32 :=
  VO0_1.read (Elt F) (VO0_1.writes (Elt F) VO0_1.junk (kernelRun0_C c i arg2 harg2 arg3 harg3 arg4 harg4 arg5 harg5 arg6 harg6 hc0 hc1 x0 xs0 xs1).1)
def out0_C_2 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1x1 .f32 :=
  VO0_2.read (Elt F) (VO0_2.writes (Elt F) VO0_2.junk (kernelRun0_C c i arg2 harg2 arg3 harg3 arg4 harg4 arg5 harg5 arg6 harg6 hc0 hc1 x0 xs0 xs1).2.1)
def sout0_C_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 xs0 xs1).2.2.1)
def sout0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-! ## What the four buffers hold after each point -/

/-- After point `n`: (first output block, second output block, running maximum, running sum). A half's first tile starts
    afresh; any other continues from the scratch contents the point before left. -/
def outsAt0 (c : Dev nD) : (n : ℕ) → n < cfg0.N → Vec F S1x1x1 .f32 × Vec F S1x1x1 .f32 × Vec F S1x1 .f32 × Vec F S1x1 .f32
  | 0, hn => (junk0_1, junk0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (junk0_1, junk0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (junk0_1, junk0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 V c t.val t.isLt = (junk0_1, junk0_2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (junk0_1, junk0_2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before point `n`: at the start whatever the launch hands over; afterwards the two scratch buffers at what point
    `n - 1` left in them, beside the untouched scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ other0 c) ∗ (∃ r, prngReg c r)) := by
  cases n with
  | zero => exact absurd rfl hz
  | succ n => rfl

/-! ## The region's proof data -/

/-- The arrays as the region finds them; after the body at point `t` the tile's buffer at the tile and the output blocks'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The tile's buffer holds the tile; the point's position modulo 32 says which kind it is; the
    invariant hands the body the scratch buffers at what the point before left (anything, before the very first point)
    and takes them back at this point's contents; an output block that is not stored goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1),
      Dat.leavesExact_idle (dat0 V c) 2 t (idleAt0_2 t hc1) (noFlush0_2 t hc1)]
    rw [outsAt0_A V c t h0 h1]
    unfold sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ hc0 hc1 (iblk0 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact Hoth
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ hc0 hc1 (iblk0 V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact Hoth
        iexact Hg
      isplitl [Ho]; · iexact Ho
      isplitl [H0]; · iexact H0
      isplitl [H1]; · iexists _; iexact H1
      iexists _; iexact H2
  · have hz : t.val ≠ 0 := fun e => h0 (by rw [e])
    have hc0 : ¬cond0_0 (grid0.coords t) := fun h => h0 ((hcond0_0 t).mp h)
    by_cases h1 : t.val % 32 = 31
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_1 out0_C_2 sout0_C_0 sout0_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1),
        Dat.leavesExact_idle (dat0 V c) 2 t (idleAt0_2 t hc1) (noFlush0_2 t hc1)]
      rw [outsAt0_B V c t h0 h1]
      unfold sout0_B_0 sout0_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the scratch buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region0

end Cert.Kernel.Hand

end
-- ==== Proof.Kernel.R1.lean ====
/-
  The second kernel's region: 64 points, point t working on tile t of the 524288 x 128 matrix.

  The body loads the tile and two one-entry blocks (the final maximum and the reciprocal of the final sum, the same block
  at every point), and stores one 8192 x 128 value computed from the three into the output tile, which is written back
  at every point. Stated here, for ANY contents `V` of the core's buffers when the region is entered: each window's
  block at a point, what the output's buffer holds after the body (its one store, read back), the body's run on
  arbitrary whole buffers, the region's proof data and the body obligation at every point.
-/
import proofs.«151102_j84679575208560_2_alg».proof.Proof.Gen.Kernel.Launch
import proofs.«151102_j84679575208560_2_alg».proof.Proof.Gen.Kernel.Skeleton
import proofs.«151102_j84679575208560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

/-- The whole 8192 x 128 buffer, and the whole one-entry buffer, as rectangles. -/
abbrev r1_big : Rect S8192x128 := Rect.unit (s := S8192x128) ![0, 0] S8192x128.size inb_S8192x128_S8192x128_0_0
abbrev r1_one : Rect S1x1 := Rect.unit (s := S1x1) ![0, 0] S1x1.size inb_S1x1_S1x1_0_0

/-- The output tile's buffer after the body, from the three input blocks: its one store, read back. -/
def out1_3 (x0 : Vec F S8192x128 .f32) (x1 : Vec F S1x1 .f32) (x2 : Vec F S1x1 .f32) : Vec F S8192x128 .f32 :=
  View.canon [⟨r1_big, k1_pay1 (View.ld x0 r1_big) (View.ld x1 r1_one) (View.ld x2 r1_one)⟩]

/-- The one store covers the buffer. -/
theorem cover1_3 (p0 : Vec F S8192x128 .f32) (y : S8192x128.Idx) :
    ∃ pc ∈ ([⟨r1_big, p0⟩] : List (View.Piece (Elt F) S8192x128 .f32)), y ∈ pc.1.set :=
  View.cover_of_tiled [⟨r1_big, p0⟩] S8192x128.size (by rfl) y

/-! ## The body's run -/

set_option maxHeartbeats 2000000 in
/-- On whole buffers — the inputs' at contents `x0`, `x1`, `x2`, the output's at anything — the body runs to the
    continuation holding the inputs' as they were and the output's at `out1_3` of them. -/
theorem sound_kernel1 (c : Dev nD) (E : Set ℕ) (i : grid1.Coords) (arg1 : Memref sig .tc .vmem S8192x128 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S8192x128 .f32) (harg4 : arg4.IsWhole)
    (x0 : Vec F S8192x128 .f32) (x1 x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__softmax_kernel i arg1 harg1 arg2 harg2 arg3 harg3 arg4 harg4) K := by
  simp only [cc1__softmax_kernel_eq_skeleton]; unfold cc1__softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the output's
    at `out1_3` of the three input blocks; the invariant the scoped buffers no window stages and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
/-
  The whole program, from launch to return: a reshape of the argument to 524288 x 128, the reduction kernel's region, twenty
  scalar operations merging the two halves' pairs, the second kernel's region, a reshape back.

  The contents of the core's unscoped buffers are followed boundary by boundary: `B0` at launch, `B1` after the first
  reshape (the first region's entry), `B2` after the first region (its output arrays at what its write-backs leave, every
  other buffer as entered), `B3` after the scalar operations (the second region's entry), `B4` after the second region,
  `B5` after the last reshape. Each stretch of host operations and each region is a segment entered from one boundary's
  contents and left at the next; the launch theorem for a list of segments then says that every weakly fair execution
  terminates with every unscoped buffer at `B5`. The argument is never written, so `B5` at the argument is the launch memory.
-/
import proofs.«151102_j84679575208560_2_alg».proof.Proof.Kernel.R0
import proofs.«151102_j84679575208560_2_alg».proof.Proof.Kernel.R1
import proofs.«151102_j84679575208560_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first reshape: the first region's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the scalar operations: the second region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last reshape: the return. -/
abbrev B5 : Dev nD → Valuation τ sig (Elt F) := fun c => StableHlo.after hostOps2 (B4 m ρ c)

/-- The argument reaches the return as launched: no host operation writes it and no region has it as an output. -/
theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B5`, the generator register at some state. -/
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- REGION 0 over the thread state: entered from every unscoped buffer at `B1`, left at `B2`. Its arrays are split out
    of the unscoped buffers at entry and put back at their final contents at exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (E1 m ρ) c
    unfold Pipeline.ΦA at h
    show (dat0 (E1 m ρ) c).Φ (Fin.last cfg0.N) ⊢ _
    iintro Hq
    ihave H := h $$ Hq
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Its arrays are split out
    of the unscoped buffers at entry and put back at their final contents at exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- THE RUN. From any memory with zero counters, every weakly fair execution of the program terminates, nothing faulting,
    and every final state has every unscoped buffer of every core at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: every execution terminates, nothing faulting, with the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (B5_main_arg0 m ρ c)) (run_all m ρ)

end Cert.Kernel.Hand

end
-- ==== Proof.KernelIdeal.R0Runs.lean ====
/-
  The reduction kernel, point by point: what one call of its body does to its buffers.

  The grid is 2 x 32: 64 points, point t working on tile t of the 524288 x 128 matrix (8192 rows each); the second
  coordinate of point t is t mod 32. The body keeps two one-entry scratch buffers, a running maximum and a running sum.
  Where the second coordinate is 0 it first overwrites them with the start values; at every point it loads the tile,
  raises the maximum, rescales and extends the sum, and stores both back; where the second coordinate is 31 it also
  stores the pair into the two one-entry output blocks. So there are three kinds of point: a half's first (reset, no
  output), a middle one (neither), a half's last (output). A point cannot be both first and last.
  For each kind the body's run is stated on arbitrary whole buffers: the tile's buffer is read and kept, the scratch
  buffers end at what the stores wrote (found by running the body), an output block that is not stored is handed
  back untouched.
-/
import proofs.«151102_j84679575208560_2_alg».proof.Proof.Gen.KernelIdeal.Launch
import proofs.«151102_j84679575208560_2_alg».proof.Proof.Gen.KernelIdeal.Skeleton
import proofs.«151102_j84679575208560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first tile of a half": the body's first condition, from the grid coordinates. -/
abbrev cond0_0 (i : grid0.Coords) : Prop := (Scalar.cmpi .ne (Scalar.extui (Scalar.cmpi .eq (BitVec.ofNat 32 (i 1).val) 0#32)) 0#32) = 1#1
/-- It holds exactly at the points that are 0 modulo 32. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of a half": the body's second condition. -/
abbrev cond0_1 (i : grid0.Coords) : Prop := k0_cond2 i = 1#1
/-- It holds exactly at the points that are 31 modulo 32. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the output blocks are stored -/

/-- The tile's window is used at every point. -/
theorem liveAt0_0 : ∀ t : Fin cfg0.N, cfg0.idle 0 (grid0.coords t) = false := by decide +kernel
/-- Away from a half's last tile nothing is stored into the first output block, and it is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At a half's last tile it is stored. -/
theorem liveAt0_1 : ∀ t : Fin cfg0.N, cond0_1 (grid0.coords t) → cfg0.idle 1 (grid0.coords t) = false := by decide +kernel
/-- The same of the second output block. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body is called with -/

/-- The current buffer of each window at point `t`, and that it is a whole buffer. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The two scratch buffers: the running maximum and the running sum. -/
abbrev scM0_0 : Memref sig .tc .vmem S1x1 .f32 := Memref.whole cc0_scratch0
abbrev scM0_1 : Memref sig .tc .vmem S1x1 .f32 := Memref.whole cc0_scratch1
/-- Views through which the contents of an output block and of a scratch buffer are stated. -/
abbrev VO0_1 : View sig .tc .vmem S1x1x1 .f32 := (Memref.whole cc0_stg1_0 : Memref sig .tc .vmem S1x1x1 .f32).view
abbrev VO0_2 : View sig .tc .vmem S1x1x1 .f32 := (Memref.whole cc0_stg2_0 : Memref sig .tc .vmem S1x1x1 .f32).view
abbrev VS0_0 : View sig .tc .vmem S1x1 .f32 := scM0_0.view
abbrev VS0_1 : View sig .tc .vmem S1x1 .f32 := scM0_1.view

/-! ## The body's run, by the kind of point -/

set_option maxHeartbeats 4000000 in
/-- A half's FIRST tile. The scratch buffers may hold anything (they are overwritten with the start values before they
    are read); the output blocks are not touched. The pieces the two scratch buffers end with are found by the run. -/
noncomputable def kernelRun0_A (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) :
    Σ' (LS0 : List (View.Piece (Elt F) S1x1 .f32)), { LS1 : List (View.Piece (Elt F) S1x1 .f32) //
      ∀ (xi1 xi2 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A MIDDLE tile. The scratch buffers hold what the tile before left (`xs0`, `xs1`); the output blocks are not touched. -/
noncomputable def kernelRun0_B (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) :
    Σ' (LS0 : List (View.Piece (Elt F) S1x1 .f32)), { LS1 : List (View.Piece (Elt F) S1x1 .f32) //
      ∀ (xi1 xi2 : Vec F S1x1x1 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun xi1 xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A half's LAST tile. As a middle tile, and the pair is also stored into the two output blocks, whose buffers may hold
    anything before. -/
noncomputable def kernelRun0_C (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    Σ' (L1 : List (View.Piece (Elt F) S1x1x1 .f32)) (L2 : List (View.Piece (Elt F) S1x1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Hand

end
-- ==== Proof.KernelIdeal.R0.lean ====
/-
  The reduction kernel's region as a whole: what its buffers hold after each of the 64 points.

  For ANY contents `V` of the core's buffers when the region is entered: the tile a point reads (`iblk0`); what each kind of
  point leaves in the scratch buffers and the output blocks, read back from the pieces the body's run found; then, by
  recursion on the point, what the four buffers hold after point n (`outsAt0`): a half's first tile starts afresh, every
  other tile continues from what the tile before left in the scratch buffers. The region's invariant carries the two
  scratch buffers at exactly those contents from point to point (`PhiS`), beside the core's other scoped buffers and its
  generator register, which the body never touches. With this proof data the body obligation holds at every point.
-/
import proofs.«151102_j84679575208560_2_alg».proof.Proof.KernelIdeal.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The tile a point reads -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile's current buffer holds the tile at every point, for any proof data whose array is `V`'s and whose body leaves
    the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The scoped buffers beside the scratch -/

/-- The core's scoped buffers that this kernel neither stages nor uses (the other kernel's staging buffers), each whole at
    some contents: they ride through the region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region's launch hands the body beside the windows: the two scratch buffers at some contents, the other scoped
    buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ other0 c) ∗ (∃ r, prngReg c r)) := by
  unfold Pipeline.ΦA other0; rw [scopedRest0_eq]; simp only [scM0_0, scM0_1, owns_whole]; try rfl

/-! ## What each kind of point leaves -/

/-- Placeholders for an output block at a point that does not store it: nothing consults them (the block is neither
    written back there nor read later). -/
def junk0_1 : Vec F S1x1x1 .f32 := VO0_1.read (Elt F) (VO0_1.writes (Elt F) VO0_1.junk ([] : List (View.Piece (Elt F) S1x1x1 .f32)))
def junk0_2 : Vec F S1x1x1 .f32 := VO0_2.read (Elt F) (VO0_2.writes (Elt F) VO0_2.junk ([] : List (View.Piece (Elt F) S1x1x1 .f32)))

/-- A half's first tile: the pieces stored into each scratch buffer cover it; what they leave, read back. -/
theorem scover0_A_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) (y : S1x1.Idx) :
    ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S1x1.size (by sl_kernel_rfl) y
theorem scover0_A_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) (y : S1x1.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S1x1.size (by sl_kernel_rfl) y
def sout0_A_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) : Vec F S1x1 .f32 :=
  VS0_0.read (Elt F) (VS0_0.writes (Elt F) VS0_0.junk (kernelRun0_A c i arg2 harg2 arg3 harg3 arg4 harg4 arg5 harg5 arg6 harg6 hc0 hc1 x0).1)
def sout0_A_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) : Vec F S1x1 .f32 :=
  VS0_1.read (Elt F) (VS0_1.writes (Elt F) VS0_1.junk (kernelRun0_A c i arg2 harg2 arg3 harg3 arg4 harg4 arg5 harg5 arg6 harg6 hc0 hc1 x0).2.1)

/-- A middle tile: the same, from what the tile before left. -/
theorem scover0_B_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) (y : S1x1.Idx) :
    ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S1x1.size (by sl_kernel_rfl) y
theorem scover0_B_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) (y : S1x1.Idx) :
    ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S1x1.size (by sl_kernel_rfl) y
def sout0_B_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 xs0 xs1).1)
def sout0_B_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) : Vec F S1x1 .f32 :=
  VS0_1.read (Elt F) (VS0_1.writes (Elt F) VS0_1.junk (kernelRun0_B c i arg2 harg2 arg3 harg3 arg4 harg4 arg5 harg5 arg6 harg6 hc0 hc1 x0 xs0 xs1).2.1)

/-- A half's last tile: the same, and the two output blocks. -/
theorem cover0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1x1.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S1x1x1.size (by sl_kernel_rfl) y
theorem cover0_C_2 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1x1.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S1x1x1.size (by sl_kernel_rfl) y
theorem scover0_C_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S1x1.size (by sl_kernel_rfl) y
theorem scover0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) (y : S1x1.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S1x1.size (by sl_kernel_rfl) y
def out0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1x1 .f32 :=
  VO0_1.read (Elt F) (VO0_1.writes (Elt F) VO0_1.junk (kernelRun0_C c i arg2 harg2 arg3 harg3 arg4 harg4 arg5 harg5 arg6 harg6 hc0 hc1 x0 xs0 xs1).1)
def out0_C_2 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1x1 .f32 :=
  VO0_2.read (Elt F) (VO0_2.writes (Elt F) VO0_2.junk (kernelRun0_C c i arg2 harg2 arg3 harg3 arg4 harg4 arg5 harg5 arg6 harg6 hc0 hc1 x0 xs0 xs1).2.1)
def sout0_C_0 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 xs0 xs1).2.2.1)
def sout0_C_1 (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) : Vec F S1x1 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-! ## What the four buffers hold after each point -/

/-- After point `n`: (first output block, second output block, running maximum, running sum). A half's first tile starts
    afresh; any other continues from the scratch contents the point before left. -/
def outsAt0 (c : Dev nD) : (n : ℕ) → n < cfg0.N → Vec F S1x1x1 .f32 × Vec F S1x1x1 .f32 × Vec F S1x1 .f32 × Vec F S1x1 .f32
  | 0, hn => (junk0_1, junk0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 32 = 0 then
      if h1 : (n + 1) % 32 = 31 then
        False.elim (by omega)
      else
        (junk0_1, junk0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (junk0_1, junk0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 32 = 0) (h1 : ¬t.val % 32 = 31) :
    outsAt0 V c t.val t.isLt = (junk0_1, junk0_2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (junk0_1, junk0_2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before point `n`: at the start whatever the launch hands over; afterwards the two scratch buffers at what point
    `n - 1` left in them, beside the untouched scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ other0 c) ∗ (∃ r, prngReg c r)) := by
  cases n with
  | zero => exact absurd rfl hz
  | succ n => rfl

/-! ## The region's proof data -/

/-- The arrays as the region finds them; after the body at point `t` the tile's buffer at the tile and the output blocks'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The tile's buffer holds the tile; the point's position modulo 32 says which kind it is; the
    invariant hands the body the scratch buffers at what the point before left (anything, before the very first point)
    and takes them back at this point's contents; an output block that is not stored goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [Dat.leavesExact_idle (dat0 V c) 1 t (idleAt0_1 t hc1) (noFlush0_1 t hc1),
      Dat.leavesExact_idle (dat0 V c) 2 t (idleAt0_2 t hc1) (noFlush0_2 t hc1)]
    rw [outsAt0_A V c t h0 h1]
    unfold sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ hc0 hc1 (iblk0 V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact Hoth
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_A c (grid0.coords t) _ _ _ _ _ _ _ _ _ _ hc0 hc1 (iblk0 V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          iexact Hoth
        iexact Hg
      isplitl [Ho]; · iexact Ho
      isplitl [H0]; · iexact H0
      isplitl [H1]; · iexists _; iexact H1
      iexists _; iexact H2
  · have hz : t.val ≠ 0 := fun e => h0 (by rw [e])
    have hc0 : ¬cond0_0 (grid0.coords t) := fun h => h0 ((hcond0_0 t).mp h)
    by_cases h1 : t.val % 32 = 31
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [show (dat0 V c).leavesExact 2 t = owns (c : Thread nD τ) (ms0_2 t) fullShare ((dat0 V c).after 2 t) from by
        unfold Dat.leavesExact; rw [liveAt0_2 t hc1], after0_2]
      rw [outsAt0_C V c t h0 h1]
      unfold out0_C_1 out0_C_2 sout0_C_0 sout0_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ hc0 hc1 (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · have hc1 : ¬cond0_1 (grid0.coords t) := fun h => h1 ((hcond0_1 t).mp h)
      rw [Dat.leavesExact_idle (dat0 V c) 1 t (idleAt0_1 t hc1) (noFlush0_1 t hc1),
        Dat.leavesExact_idle (dat0 V c) 2 t (idleAt0_2 t hc1) (noFlush0_2 t hc1)]
      rw [outsAt0_B V c t h0 h1]
      unfold sout0_B_0 sout0_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ hc0 hc1 (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the scratch buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region0

end Cert.KernelIdeal.Hand

end
-- ==== Proof.KernelIdeal.R1.lean ====
/-
  The second kernel's region: 64 points, point t working on tile t of the 524288 x 128 matrix.

  The body loads the tile and two one-entry blocks (the final maximum and the reciprocal of the final sum, the same block
  at every point), and stores one 8192 x 128 value computed from the three into the output tile, which is written back
  at every point. Stated here, for ANY contents `V` of the core's buffers when the region is entered: each window's
  block at a point, what the output's buffer holds after the body (its one store, read back), the body's run on
  arbitrary whole buffers, the region's proof data and the body obligation at every point.
-/
import proofs.«151102_j84679575208560_2_alg».proof.Proof.Gen.KernelIdeal.Launch
import proofs.«151102_j84679575208560_2_alg».proof.Proof.Gen.KernelIdeal.Skeleton
import proofs.«151102_j84679575208560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output's buffer -/

/-- The whole 8192 x 128 buffer, and the whole one-entry buffer, as rectangles. -/
abbrev r1_big : Rect S8192x128 := Rect.unit (s := S8192x128) ![0, 0] S8192x128.size inb_S8192x128_S8192x128_0_0
abbrev r1_one : Rect S1x1 := Rect.unit (s := S1x1) ![0, 0] S1x1.size inb_S1x1_S1x1_0_0

/-- The output tile's buffer after the body, from the three input blocks: its one store, read back. -/
def out1_3 (x0 : Vec F S8192x128 .f32) (x1 : Vec F S1x1 .f32) (x2 : Vec F S1x1 .f32) : Vec F S8192x128 .f32 :=
  View.canon [⟨r1_big, k1_pay1 (View.ld x0 r1_big) (View.ld x1 r1_one) (View.ld x2 r1_one)⟩]

/-- The one store covers the buffer. -/
theorem cover1_3 (p0 : Vec F S8192x128 .f32) (y : S8192x128.Idx) :
    ∃ pc ∈ ([⟨r1_big, p0⟩] : List (View.Piece (Elt F) S8192x128 .f32)), y ∈ pc.1.set :=
  View.cover_of_tiled [⟨r1_big, p0⟩] S8192x128.size (by rfl) y

/-! ## The body's run -/

set_option maxHeartbeats 2000000 in
/-- On whole buffers — the inputs' at contents `x0`, `x1`, `x2`, the output's at anything — the body runs to the
    continuation holding the inputs' as they were and the output's at `out1_3` of them. -/
theorem sound_kernel1 (c : Dev nD) (E : Set ℕ) (i : grid1.Coords) (arg1 : Memref sig .tc .vmem S8192x128 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S8192x128 .f32) (harg4 : arg4.IsWhole)
    (x0 : Vec F S8192x128 .f32) (x1 x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__softmax_kernel i arg1 harg1 arg2 harg2 arg3 harg3 arg4 harg4) K := by
  simp only [cc1__softmax_kernel_eq_skeleton]; unfold cc1__softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point `t` each input's buffer at its block and the output's
    at `out1_3` of the three input blocks; the invariant the scoped buffers no window stages and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
/-
  The whole program, from launch to return: a reshape of the argument to 524288 x 128, the reduction kernel's region, twenty
  scalar operations merging the two halves' pairs, the second kernel's region, a reshape back.

  The contents of the core's unscoped buffers are followed boundary by boundary: `B0` at launch, `B1` after the first
  reshape (the first region's entry), `B2` after the first region (its output arrays at what its write-backs leave, every
  other buffer as entered), `B3` after the scalar operations (the second region's entry), `B4` after the second region,
  `B5` after the last reshape. Each stretch of host operations and each region is a segment entered from one boundary's
  contents and left at the next; the launch theorem for a list of segments then says that every weakly fair execution
  terminates with every unscoped buffer at `B5`. The argument is never written, so `B5` at the argument is the launch memory.
-/
import proofs.«151102_j84679575208560_2_alg».proof.Proof.KernelIdeal.R0
import proofs.«151102_j84679575208560_2_alg».proof.Proof.KernelIdeal.R1
import proofs.«151102_j84679575208560_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the first reshape: the first region's entry. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the scalar operations: the second region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last reshape: the return. -/
abbrev B5 : Dev nD → Valuation τ sig (Elt F) := fun c => StableHlo.after hostOps2 (B4 m ρ c)

/-- The argument reaches the return as launched: no host operation writes it and no region has it as an output. -/
theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B5`, the generator register at some state. -/
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- REGION 0 over the thread state: entered from every unscoped buffer at `B1`, left at `B2`. Its arrays are split out
    of the unscoped buffers at entry and put back at their final contents at exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (E1 m ρ) c
    unfold Pipeline.ΦA at h
    show (dat0 (E1 m ρ) c).Φ (Fin.last cfg0.N) ⊢ _
    iintro Hq
    ihave H := h $$ Hq
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B3`, left at `B4`. Its arrays are split out
    of the unscoped buffers at entry and put back at their final contents at exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- THE RUN. From any memory with zero counters, every weakly fair execution of the program terminates, nothing faulting,
    and every final state has every unscoped buffer of every core at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: every execution terminates, nothing faulting, with the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (B5_main_arg0 m ρ c)) (run_all m ρ)

end Cert.KernelIdeal.Hand

end
-- ==== Proof.Spec.lean ====
/-
  The mathematics shared by the two programs, on the extended reals.

  The input is a vector of 2^26 numbers, read by the kernel as a 524288 x 128 matrix and cut into 64 tiles of
  8192 rows. The first kernel walks the tiles of each half (32 tiles per half) keeping a running maximum `m` and a
  running sum `l` of `exp (x - m)`: at each tile the maximum is raised to cover the tile, the old sum is rescaled by
  `exp (m_old - m_new)` and the tile's own sum of `exp (x - m_new)` is added. The definitions below say this of one
  tile (`tileMax`, `tileSum`, `stepM`, `stepL`) and of a sequence of tiles (`run`), and `combineM` / `combineL` merge the two
  halves' pairs the same way. Everything is stated with the extended reals' own operations and the exponential of the
  ideal reading (`Ideal.exp`: the real exponential on the reals, `0` at `-∞`, `+∞` at `+∞`).
-/
import Idealize.ShloMosaic.PureOps.Ideal

noncomputable section

open scoped BigOperators

namespace Cert.Softmax

open Idealize.ShloMosaic

/-- The maximum of an 8192 x 128 tile, seeded with `-∞`, taken down the rows of each lane and then across the lanes. -/
def tileMax (X : Fin 8192 → Fin 128 → EReal) : EReal :=
  (Finset.univ : Finset (Fin 128)).fold max ⊥ fun k => (Finset.univ : Finset (Fin 8192)).fold max ⊥ fun r => X r k

/-- The tile's sum of `exp (x - μ)`, down the rows of each lane and then across the lanes. -/
def tileSum (X : Fin 8192 → Fin 128 → EReal) (μ : EReal) : EReal :=
  ∑ k : Fin 128, ∑ r : Fin 8192, Ideal.exp (X r k - μ)

/-- One step of the running maximum: the old one raised to cover the tile. -/
def stepM (mp : EReal) (X : Fin 8192 → Fin 128 → EReal) : EReal := max mp (tileMax X)

/-- One step of the running sum: the old sum rescaled to the new maximum, plus the tile's sum at the new maximum. -/
def stepL (mp lp : EReal) (X : Fin 8192 → Fin 128 → EReal) : EReal :=
  lp * Ideal.exp (mp - stepM mp X) + tileSum X (stepM mp X)

/-- The pair (running maximum, running sum) after the first `n` tiles of a sequence `T`, from start values `m0`, `l0`. -/
def run (m0 l0 : EReal) (T : ℕ → Fin 8192 → Fin 128 → EReal) : ℕ → EReal × EReal
  | 0 => (m0, l0)
  | n + 1 => (stepM (run m0 l0 T n).1 (T n), stepL (run m0 l0 T n).1 (run m0 l0 T n).2 (T n))

/-- The two halves' maxima merged. -/
def combineM (m0 m1 : EReal) : EReal := max m0 m1

/-- The two halves' sums merged: each rescaled to the merged maximum. -/
def combineL (m0 l0 m1 l1 : EReal) : EReal :=
  l0 * Ideal.exp (m0 - combineM m0 m1) + l1 * Ideal.exp (m1 - combineM m0 m1)

end Cert.Softmax

end
-- ==== Proof.Payloads.lean ====
/-
  The values the two kernels compute, read entry by entry on the extended reals.

  An 8192 x 128 tile `X` is read by its row and lane (`tileOf X r k`). The first kernel's stored values are, at their
  one entry: the start value of the running maximum (a constant), the start value of the running sum (zero), the
  running maximum raised to cover the tile (`stepM`: the old maximum against the tile's maximum, taken down the rows
  of each lane and then across the lanes, from `-∞`), and the running sum rescaled to the new maximum plus the tile's
  own sum of exponentials (`stepL`: the sum taken down the rows of each lane and then across the lanes). The second
  kernel's stored value is `exp (x - m) * s` entry by entry, `m` and `s` one-entry blocks read everywhere.

  Each reduction over one axis is first read as a fold or a sum over that axis's coordinates; the casts between the
  shapes [128], [1, 128], [1], [1, 1] and [1, 1, 1] only rename the index; a one-entry block broadcast over the tile
  reads its one entry everywhere.

  The last section reads the host operations that sit between the two kernels: from the two-entry blocks holding each
  half's maximum and sum they produce the merged maximum (`combineM`) and one over the merged sum (`combineL`).
-/
import proofs.«151102_j84679575208560_2_alg».proof.Proof.Spec
import proofs.«151102_j84679575208560_2_alg».proof.Proof.Gen.KernelIdeal.Skeleton
import proofs.«151102_j84679575208560_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.KernelIdeal.PayVal

open Cert.KernelIdeal Cert.KernelIdeal.Gen Idealize.ShloMosaic Idealize.ShloMosaic.ValueIdx Cert.Softmax

/-- A tile read by its row and lane. -/
def tileOf (X : Vec Ideal S8192x128 .f32) : Fin 8192 → Fin 128 → EReal := fun r k => X (ix2 r k)

/-- A one-by-one block has one index. -/
theorem idx11 (j : S1x1.Idx) : j = ix2 (0 : Fin 1) (0 : Fin 1) := by
  funext a
  match a with
  | ⟨0, _⟩ => exact Fin.ext (Nat.lt_one_iff.mp (idx2_lt0 j))
  | ⟨1, _⟩ => exact Fin.ext (Nat.lt_one_iff.mp (idx2_lt1 j))

/-- A one-by-one-by-one block has one index. -/
theorem idx111 (j : S1x1x1.Idx) : j = ix3 (0 : Fin 1) (0 : Fin 1) (0 : Fin 1) := by
  funext a
  match a with
  | ⟨0, _⟩ => exact Fin.ext (Nat.lt_one_iff.mp (j 0).isLt)
  | ⟨1, _⟩ => exact Fin.ext (Nat.lt_one_iff.mp (j 1).isLt)
  | ⟨2, _⟩ => exact Fin.ext (Nat.lt_one_iff.mp (j 2).isLt)

/-- The pattern of `-∞`. -/
theorem negInf : Ideal.ofBits .f32 0xFF800000#32 = ⊥ := by simp [Ideal.ofBits, Ideal.ieee]

theorem pay1_apply (j : S1x1.Idx) : k0_pay1 (F := Ideal) j = Ideal.ofBits .f32 0xFF333332#32 := by
  unfold k0_pay1
  exact congrFun (shapeCast_self _ _) j

theorem pay2_apply (j : S1x1.Idx) : k0_pay2 (F := Ideal) j = 0 := by
  unfold k0_pay2
  exact (congrFun (shapeCast_self _ _) j).trans Ideal.ofBits_zero_f32

/-- The index a reduction down the rows reads: row `r` of lane `k`. -/
theorem lift_rows (h : S8192x128.Reduces [0] S128) (k : Fin 128) (r : Fin 8192) :
    h.lift (ix1 k) r = ix2 r k := by
  funext a
  match a with
  | ⟨0, _⟩ => rfl
  | ⟨1, _⟩ => rfl

/-- The index a reduction across the lanes of one row reads. -/
theorem lift_lanes (h : S1x128.Reduces [1] S1) (u : Fin 1) (k : Fin 128) :
    h.lift (ix1 u) k = ix2 u k := by
  funext a
  match a with
  | ⟨0, _⟩ => rfl
  | ⟨1, _⟩ => rfl

/-- A maximum down the rows, seeded with `-∞`, read at lane `k`. -/
theorem colMax (src : FVec Ideal S8192x128 .f32) (h : S8192x128.Reduces [0] S128) (hφ : FKind.Formats .f32)
    (hacc : (0xFF800000#32 : BitVec 32) = 0xFF800000#32) (k : Fin 128) :
    multiReduction .maximumf [0] S128 src 0xFF800000#32 h hφ hacc (ix1 k)
      = (Finset.univ : Finset (Fin 8192)).fold max ⊥ fun r => src (ix2 r k) := by
  refine (Ideal.multiReduction_maximumf_single src _ h hφ hacc (ix1 k)).trans ?_
  show Finset.fold max (Ideal.ofBits .f32 0xFF800000#32) (fun r : Fin 8192 => src (h.lift (ix1 k) r)) Finset.univ = _
  rw [negInf]
  exact Finset.fold_congr fun r _ => congrArg src (lift_rows h k r)

/-- A maximum across the lanes of a one-row block, seeded with `-∞`. -/
theorem rowMax (src : FVec Ideal S1x128 .f32) (h : S1x128.Reduces [1] S1) (hφ : FKind.Formats .f32)
    (hacc : (0xFF800000#32 : BitVec 32) = 0xFF800000#32) (u : Fin 1) :
    multiReduction .maximumf [1] S1 src 0xFF800000#32 h hφ hacc (ix1 u)
      = (Finset.univ : Finset (Fin 128)).fold max ⊥ fun k => src (ix2 u k) := by
  refine (Ideal.multiReduction_maximumf_single src _ h hφ hacc (ix1 u)).trans ?_
  show Finset.fold max (Ideal.ofBits .f32 0xFF800000#32) (fun k : Fin 128 => src (h.lift (ix1 u) k)) Finset.univ = _
  rw [negInf]
  exact Finset.fold_congr fun k _ => congrArg src (lift_lanes h u k)

/-- A sum down the rows read at lane `k`. -/
theorem colSum (src : FVec Ideal S8192x128 .f32) (h : S8192x128.Reduces [0] S128) (hφ : FKind.Formats .f32)
    (hacc : (0x00000000#32 : BitVec 32) = 0x00000000#32) (k : Fin 128) :
    multiReduction .add [0] S128 src 0x00000000#32 h hφ hacc (ix1 k) = ∑ r : Fin 8192, src (ix2 r k) := by
  refine (Ideal.multiReduction_add_single src _ h hφ hacc (ix1 k)).trans ?_
  show ∑ r : Fin 8192, src (h.lift (ix1 k) r) = _
  exact Finset.sum_congr rfl fun r _ => congrArg src (lift_rows h k r)

/-- A sum across the lanes of a one-row block. -/
theorem rowSum (src : FVec Ideal S1x128 .f32) (h : S1x128.Reduces [1] S1) (hφ : FKind.Formats .f32)
    (hacc : (0x00000000#32 : BitVec 32) = 0x00000000#32) (u : Fin 1) :
    multiReduction .add [1] S1 src 0x00000000#32 h hφ hacc (ix1 u) = ∑ k : Fin 128, src (ix2 u k) := by
  refine (Ideal.multiReduction_add_single src _ h hφ hacc (ix1 u)).trans ?_
  show ∑ k : Fin 128, src (h.lift (ix1 u) k) = _
  exact Finset.sum_congr rfl fun k _ => congrArg src (lift_lanes h u k)

/-- A one-entry block broadcast over the tile reads its one entry everywhere. -/
theorem bcast11 (v : FVec Ideal S1x1 .f32) (h : S1x1.Broadcasts S8192x128) (r : Fin 8192) (k : Fin 128) :
    broadcastTo S8192x128 v h (ix2 r k) = v (ix2 0 0) := by
  refine broadcastTo_apply v h (ix2 r k) (ix2 (0 : Fin 1) (0 : Fin 1)) fun a => ?_
  match a with
  | ⟨0, _⟩ => rfl
  | ⟨1, _⟩ => rfl

/-- The running maximum's payload at its one entry. -/
theorem pay4_00 (X : Vec Ideal S8192x128 .f32) (mp : Vec Ideal S1x1 .f32) :
    k0_pay4 X mp (ix2 0 0) = stepM (mp (ix2 0 0)) (tileOf X) := by
  unfold k0_pay4 k0_pay3 stepM tileMax tileOf
  refine (maximumf_apply _ _ (ix2 0 0)).trans ?_
  refine congrArg (max (mp (ix2 0 0))) ?_
  refine (shapeCast_a_1a_apply _ _ 0 0).trans ?_
  refine (rowMax _ _ _ _ 0).trans ?_
  refine Finset.fold_congr fun k _ => ?_
  refine (shapeCast_a_1a_apply _ _ 0 k).trans ?_
  refine (colMax _ _ _ _ k).trans ?_
  refine Finset.fold_congr fun r _ => ?_
  exact congrFun (shapeCast_self X _) (ix2 r k)

theorem pay4_apply (X : Vec Ideal S8192x128 .f32) (mp : Vec Ideal S1x1 .f32) (j : S1x1.Idx) :
    k0_pay4 X mp j = stepM (mp (ix2 0 0)) (tileOf X) := by
  rw [idx11 j]; exact pay4_00 X mp

/-- The running sum's payload at its one entry. -/
theorem pay5_00 (X : Vec Ideal S8192x128 .f32) (mp lp : Vec Ideal S1x1 .f32) :
    k0_pay5 X mp lp (ix2 0 0) = stepL (mp (ix2 0 0)) (lp (ix2 0 0)) (tileOf X) := by
  unfold k0_pay5 stepL tileSum
  refine (addf_apply _ _ (ix2 0 0)).trans ?_
  refine congrArg₂ (· + ·) ?_ ?_
  · show lp (ix2 0 0) * Ideal.exp (mp (ix2 0 0) - k0_pay4 X mp (ix2 0 0)) = _
    rw [pay4_00]
  · refine (shapeCast_a_1a_apply _ _ 0 0).trans ?_
    refine (rowSum _ _ _ _ 0).trans ?_
    refine Finset.sum_congr rfl fun k _ => ?_
    refine (shapeCast_a_1a_apply _ _ 0 k).trans ?_
    refine (colSum _ _ _ _ k).trans ?_
    refine Finset.sum_congr rfl fun r _ => ?_
    refine (congrArg Ideal.exp (congrArg₂ (· - ·) ?_ ?_) : Ideal.exp (_ - _) = Ideal.exp (_ - _))
    · exact congrFun (shapeCast_self X _) (ix2 r k)
    · refine (bcast11 _ _ r k).trans ?_
      exact (congrFun (shapeCast_self _ _) (ix2 0 0)).trans (pay4_00 X mp)

theorem pay5_apply (X : Vec Ideal S8192x128 .f32) (mp lp : Vec Ideal S1x1 .f32) (j : S1x1.Idx) :
    k0_pay5 X mp lp j = stepL (mp (ix2 0 0)) (lp (ix2 0 0)) (tileOf X) := by
  rw [idx11 j]; exact pay5_00 X mp lp

theorem pay6_apply (X : Vec Ideal S8192x128 .f32) (mp : Vec Ideal S1x1 .f32) (j : S1x1.Idx) :
    k0_pay6 X mp j = stepM (mp (ix2 0 0)) (tileOf X) := by
  unfold k0_pay6
  exact (congrFun (shapeCast_self _ _) j).trans (pay4_apply X mp j)

theorem pay7_apply (X : Vec Ideal S8192x128 .f32) (mp lp : Vec Ideal S1x1 .f32) (j : S1x1.Idx) :
    k0_pay7 X mp lp j = stepL (mp (ix2 0 0)) (lp (ix2 0 0)) (tileOf X) := by
  unfold k0_pay7
  exact (congrFun (shapeCast_self _ _) j).trans (pay5_apply X mp lp j)

/-- A one-entry block viewed with one more unit axis reads the same entry. -/
theorem cast11_111 (v : FVec Ideal S1x1 .f32) (h : S1x1.ShapeCasts S1x1x1) (j : S1x1x1.Idx) :
    shapeCast S1x1x1 v h j = v (ix2 0 0) := by
  rw [idx111 j]
  exact shapeCast_ab_1ab_apply v h 0 0 0

theorem pay8_apply (X : Vec Ideal S8192x128 .f32) (mp : Vec Ideal S1x1 .f32) (j : S1x1x1.Idx) :
    k0_pay8 X mp j = stepM (mp (ix2 0 0)) (tileOf X) := by
  unfold k0_pay8
  exact (cast11_111 _ _ j).trans (pay4_00 X mp)

theorem pay9_apply (X : Vec Ideal S8192x128 .f32) (mp lp : Vec Ideal S1x1 .f32) (j : S1x1x1.Idx) :
    k0_pay9 X mp lp j = stepL (mp (ix2 0 0)) (lp (ix2 0 0)) (tileOf X) := by
  unfold k0_pay9
  exact (cast11_111 _ _ j).trans (pay5_00 X mp lp)

/-- The second kernel's payload, entry by entry. -/
theorem k1_pay1_apply (X : Vec Ideal S8192x128 .f32) (mf sf : Vec Ideal S1x1 .f32) (r : Fin 8192) (k : Fin 128) :
    k1_pay1 X mf sf (ix2 r k) = Ideal.exp (X (ix2 r k) - mf (ix2 0 0)) * sf (ix2 0 0) := by
  unfold k1_pay1
  refine (mulf_apply _ _ (ix2 r k)).trans ?_
  refine congrArg₂ (· * ·) ?_ ?_
  · refine (congrArg Ideal.exp (congrArg₂ (· - ·) ?_ ?_) : Ideal.exp (_ - _) = Ideal.exp (_ - _))
    · exact congrFun (shapeCast_self X _) (ix2 r k)
    · refine (bcast11 _ _ r k).trans ?_
      exact (congrFun (shapeCast_self _ _) (ix2 0 0)).trans (congrFun (shapeCast_self mf _) (ix2 0 0))
  · refine (bcast11 _ _ r k).trans ?_
    exact (congrFun (shapeCast_self _ _) (ix2 0 0)).trans (congrFun (shapeCast_self sf _) (ix2 0 0))

/-! ## The host operations between the two kernels

The twenty host operations cut the two-entry blocks of maxima and sums into their halves (a slice and a cast to a
scalar each), merge the maxima, rescale each half's sum to the merged maximum and add them, and take the reciprocal.
The definitions below spell those terms over the two blocks; `host_m` and `host_invl` read them at their one entry. -/

/-- Between two shapes of one entry each, a cast reads that entry. -/
theorem shapeCast_one {α : Type} {s t : Shape} (hs : s.numel = 1) (ht : t.numel = 1) (x : s.Idx → α) (h : s.ShapeCasts t)
    (j : t.Idx) (k : s.Idx) : shapeCast t x h j = x k :=
  shapeCast_apply x h j k (by
    have a := (s.rowMajor k).isLt
    have b := (t.rowMajor j).isLt
    omega)

/-- The first half of a two-entry block, as a scalar. -/
def half0 (A : S2x1x1.Idx → EReal) : S_.Idx → EReal :=
  shapeCast S_ (extractStridedSlice S1x1x1 ![0, 0, 0] A slices_S2x1x1_S1x1x1_0_0_0) shapeCasts_S1x1x1_S_

/-- The second half of a two-entry block, as a scalar. -/
def half1 (A : S2x1x1.Idx → EReal) : S_.Idx → EReal :=
  shapeCast S_ (extractStridedSlice S1x1x1 ![1, 0, 0] A slices_S2x1x1_S1x1x1_1_0_0) shapeCasts_S1x1x1_S_

theorem half0_apply (A : S2x1x1.Idx → EReal) (i : S_.Idx) : half0 A i = A (ix3 0 0 0) := by
  unfold half0
  refine (shapeCast_one (by decide) (by decide) _ _ i (ix3 0 0 0)).trans ?_
  exact extractStridedSlice_apply _ A _ _ _ fun a => by
    match a with
    | ⟨0, _⟩ => rfl
    | ⟨1, _⟩ => rfl
    | ⟨2, _⟩ => rfl

theorem half1_apply (A : S2x1x1.Idx → EReal) (i : S_.Idx) : half1 A i = A (ix3 1 0 0) := by
  unfold half1
  refine (shapeCast_one (by decide) (by decide) _ _ i (ix3 0 0 0)).trans ?_
  exact extractStridedSlice_apply _ A _ _ _ fun a => by
    match a with
    | ⟨0, _⟩ => rfl
    | ⟨1, _⟩ => rfl
    | ⟨2, _⟩ => rfl

/-- The merged maximum as the host computes it from the block of the two halves' maxima. -/
def hostMax (M : S2x1x1.Idx → EReal) : S_.Idx → EReal :=
  maximumf (F := Ideal) (φ := .f32) (half0 M) (half1 M)

/-- The merged sum as the host computes it from the blocks of maxima and of sums. -/
def hostSum (M L : S2x1x1.Idx → EReal) : S_.Idx → EReal :=
  addf (F := Ideal) (φ := .f32)
    (mulf (F := Ideal) (φ := .f32) (half0 L) (Host.exp (F := Ideal) (φ := .f32) (subf (F := Ideal) (φ := .f32) (half0 M) (hostMax M))))
    (mulf (F := Ideal) (φ := .f32) (half1 L) (Host.exp (F := Ideal) (φ := .f32) (subf (F := Ideal) (φ := .f32) (half1 M) (hostMax M))))

/-- The reciprocal of the merged sum, as a one-by-one block. -/
def hostInv (M L : S2x1x1.Idx → EReal) : S1x1.Idx → EReal :=
  shapeCast S1x1 (Host.divf (F := Ideal) (φ := .f32) (constant (F := Ideal) S_ .f32 0x3F800000#32) (hostSum M L)) shapeCasts_S_S1x1

theorem hostMax_apply (M : S2x1x1.Idx → EReal) (i : S_.Idx) :
    hostMax M i = combineM (M (ix3 0 0 0)) (M (ix3 1 0 0)) := by
  unfold hostMax combineM
  exact congrArg₂ max (half0_apply M i) (half1_apply M i)

theorem hostSum_apply (M L : S2x1x1.Idx → EReal) (i : S_.Idx) :
    hostSum M L i = combineL (M (ix3 0 0 0)) (L (ix3 0 0 0)) (M (ix3 1 0 0)) (L (ix3 1 0 0)) := by
  unfold hostSum combineL
  show half0 L i * Ideal.exp (half0 M i - hostMax M i) + half1 L i * Ideal.exp (half1 M i - hostMax M i) = _
  rw [half0_apply, half0_apply, half1_apply, half1_apply, hostMax_apply]

/-- The pattern of `1`. -/
theorem one_f32 : Ideal.ofBits .f32 0x3F800000#32 = 1 := IdealRules.sign_bit.ideal_onePat .f32

theorem hostInv_apply (M L : S2x1x1.Idx → EReal) (j : S1x1.Idx) :
    hostInv M L j = Ideal.div 1 (combineL (M (ix3 0 0 0)) (L (ix3 0 0 0)) (M (ix3 1 0 0)) (L (ix3 1 0 0))) := by
  unfold hostInv
  refine (shapeCast_one (by decide) (by decide) _ _ j ix0).trans ?_
  show Ideal.div (Ideal.ofBits .f32 0x3F800000#32) (hostSum M L ix0) = _
  rw [one_f32, hostSum_apply]

/-- After the host operations the merged maximum's block holds the two halves' maxima merged. -/
theorem host_m (W : Valuation τ sig (Elt Ideal)) (j : S1x1.Idx) :
    StableHlo.after (hostOps1 (F := Ideal)) W (Proc.devRef .tc main_v18) j
      = combineM (W (Proc.devRef .tc main_v1_0) (ix3 0 0 0)) (W (Proc.devRef .tc main_v1_0) (ix3 1 0 0)) := by
  have e : (StableHlo.after (hostOps1 (F := Ideal)) W (Proc.devRef .tc main_v18) : S1x1.Idx → EReal)
      = shapeCast S1x1 (hostMax (W (Proc.devRef .tc main_v1_0))) shapeCasts_S_S1x1 := by
    after_results; rfl
  refine (congrFun e j).trans ?_
  refine (shapeCast_one (by decide) (by decide) _ _ j ix0).trans ?_
  exact hostMax_apply _ ix0

/-- After the host operations the reciprocal's block holds one over the two halves' sums merged. -/
theorem host_invl (W : Valuation τ sig (Elt Ideal)) (j : S1x1.Idx) :
    StableHlo.after (hostOps1 (F := Ideal)) W (Proc.devRef .tc main_v20) j
      = Ideal.div 1 (combineL (W (Proc.devRef .tc main_v1_0) (ix3 0 0 0)) (W (Proc.devRef .tc main_v1_1) (ix3 0 0 0))
          (W (Proc.devRef .tc main_v1_0) (ix3 1 0 0)) (W (Proc.devRef .tc main_v1_1) (ix3 1 0 0))) := by
  have e : (StableHlo.after (hostOps1 (F := Ideal)) W (Proc.devRef .tc main_v20) : S1x1.Idx → EReal)
      = hostInv (W (Proc.devRef .tc main_v1_0)) (W (Proc.devRef .tc main_v1_1)) := by
    after_results; rfl
  exact (congrFun e j).trans (hostInv_apply _ _ j)

end Cert.KernelIdeal.PayVal

end
-- ==== Proof.KernelIdeal.Chain.lean ====
/-
  The idealized kernel program's buffers, boundary by boundary, read at the ideal instance (a float an extended real).

  The 524288 x 128 array the two kernels read is the argument reshaped: entry (R, k) is the argument's entry R*128 + k.
  Neither the reduction kernel's region nor the scalar operations after it write that array. The scalar operations
  leave, in two one-entry arrays, the two halves' maxima merged and the reciprocal of the two halves' sums merged, read off
  the reduction kernel's two output arrays. The second kernel's output array is what its region leaves, and the result is
  that array reshaped: entry j is its entry (j / 128, j % 128).
-/
import proofs.«151102_j84679575208560_2_alg».proof.Proof.KernelIdeal.Run
import proofs.«151102_j84679575208560_2_alg».proof.Proof.Payloads
import Idealize.ShloMosaic.Lib.Pipeline.Value
import Idealize.ShloMosaic.Lib.StableHlo.Run
import Idealize.ShloMosaic.Lib.ValueIdx

set_option maxRecDepth 16384

noncomputable section

namespace Cert.KernelIdeal.Chain

open Cert.KernelIdeal Cert.KernelIdeal.Gen Cert.KernelIdeal.Hand Cert.KernelIdeal.PayVal Cert.Softmax
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The argument, as a function of its index. -/
abbrev arg : S67108864.Idx → EReal := m ((c : Thread nD τ).loc main_arg0)

/-- The first reshape: the matrix the kernels read is the argument, row-major. -/
theorem E1_v0 : (E1 m ρ c main_v0 : S524288x128.Idx → EReal) = shapeCast S524288x128 (arg m c) shapeCasts_S67108864_S524288x128 := by
  show StableHlo.after (hostOps0 (F := Ideal)) (B0 m ρ c) (Proc.devRef .tc main_v0) = _
  after_results; rfl

theorem E1_v0_apply (R : Fin 524288) (k : Fin 128) :
    (E1 m ρ c main_v0 : S524288x128.Idx → EReal) (ix2 R k) = arg m c (ix1 ⟨R.val * 128 + k.val, by omega⟩) := by
  rw [E1_v0]
  exact shapeCast_apply _ _ _ _ (by rw [Shape.rowMajor_val_one, Shape.rowMajor_val_two]; rfl)

/-- The reduction kernel's region leaves the matrix as entered (it only reads it), and so do the scalar operations. -/
theorem E2_v0 : E2 m ρ c main_v0 = E1 m ρ c main_v0 :=
  (B2_arr m ρ c 0).trans (((dat0 (E1 m ρ) c).arrAt_in 0 rfl _).trans (A_eq0 (E1 m ρ) c 0))

theorem E3_v0 : E3 m ρ c main_v0 = E1 m ρ c main_v0 :=
  (StableHlo.after_of_writes_sub (hostOps1 (F := Ideal)) _ hostOps1_writes (by decide : main_v0 ∉ hostOps1_W)).trans (E2_v0 m ρ c)

/-- The reduction kernel's two output arrays after its region. -/
theorem E2_v1_0 : E2 m ρ c main_v1_0 = (dat0 (E1 m ρ) c).arrAt 1 cfg0.N := B2_arr m ρ c 1
theorem E2_v1_1 : E2 m ρ c main_v1_1 = (dat0 (E1 m ρ) c).arrAt 2 cfg0.N := B2_arr m ρ c 2

/-- The merged maximum and the reciprocal of the merged sum, as the scalar operations leave them. -/
theorem E3_v18 (j : S1x1.Idx) : (E3 m ρ c main_v18 : S1x1.Idx → EReal) j
    = combineM ((E2 m ρ c main_v1_0 : S2x1x1.Idx → EReal) (ix3 0 0 0)) ((E2 m ρ c main_v1_0 : S2x1x1.Idx → EReal) (ix3 1 0 0)) :=
  host_m (B2 m ρ c) j

theorem E3_v20 (j : S1x1.Idx) : (E3 m ρ c main_v20 : S1x1.Idx → EReal) j
    = Ideal.div 1 (combineL ((E2 m ρ c main_v1_0 : S2x1x1.Idx → EReal) (ix3 0 0 0)) ((E2 m ρ c main_v1_1 : S2x1x1.Idx → EReal) (ix3 0 0 0))
        ((E2 m ρ c main_v1_0 : S2x1x1.Idx → EReal) (ix3 1 0 0)) ((E2 m ρ c main_v1_1 : S2x1x1.Idx → EReal) (ix3 1 0 0))) :=
  host_invl (B2 m ρ c) j

/-- The second kernel's output array after its region. -/
theorem E4_v21 : E4 m ρ c main_v21 = (dat1 (E3 m ρ) c).arrAt 3 cfg1.N := B4_arr m ρ c 3

/-- The last reshape: the result is the second kernel's output array, row-major. -/
theorem B5_v22 : (B5 m ρ c (Proc.devRef .tc main_v22) : S67108864.Idx → EReal)
    = shapeCast S67108864 (E4 m ρ c main_v21 : S524288x128.Idx → EReal) shapeCasts_S524288x128_S67108864 := by
  show StableHlo.after (hostOps2 (F := Ideal)) (B4 m ρ c) (Proc.devRef .tc main_v22) = _
  after_results; rfl

theorem B5_v22_apply (j : Fin 67108864) :
    (B5 m ρ c (Proc.devRef .tc main_v22) : S67108864.Idx → EReal) (ix1 j)
      = (E4 m ρ c main_v21 : S524288x128.Idx → EReal) (ix2 ⟨j.val / 128, by omega⟩ ⟨j.val % 128, by omega⟩) := by
  rw [B5_v22]
  refine shapeCast_apply _ _ _ _ ?_
  show (S524288x128.rowMajor (ix2 (⟨j.val / 128, by omega⟩ : Fin 524288) (⟨j.val % 128, by omega⟩ : Fin 128))).val = (S67108864.rowMajor (ix1 j)).val
  rw [Shape.rowMajor_val_one, Shape.rowMajor_val_two]
  show j.val / 128 * 128 + j.val % 128 = j.val
  omega

end Cert.KernelIdeal.Chain

end
-- ==== Proof.KernelIdeal.Pieces.lean ====
/-
  What each kind of point of the reduction kernel leaves, named: the pieces the body's runs found, read back, are the
  kernel's own payloads of the tile and of the scratch contents the point started from.

  A middle or last tile leaves the new maximum (`k0_pay6`) and the new sum (`k0_pay7`) of the tile and the old pair; a
  half's last tile also stores the same two values, reshaped, into the output blocks (`k0_pay8`, `k0_pay9`); a half's first
  tile does the same from the start pair (`k0_pay1`, `k0_pay2`), which it has just stored and loads back.
-/
import proofs.«151102_j84679575208560_2_alg».proof.Proof.KernelIdeal.R0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem out0_C_1_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    out0_C_1 c i arg2 harg2 arg3 harg3 arg4 harg4 arg5 harg5 arg6 harg6 hc0 hc1 x0 xs0 xs1 = k0_pay8 x0 xs0 := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg5.read_unread, harg6.read_unread, View.ld_unit_zero (S := S8192x128) hz2, View.ld_unit_zero (S := S1x1) hz2]
  try rfl

theorem out0_C_2_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    out0_C_2 c i arg2 harg2 arg3 harg3 arg4 harg4 arg5 harg5 arg6 harg6 hc0 hc1 x0 xs0 xs1 = k0_pay9 x0 xs0 xs1 := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero hz3]
  simp only [View.readAt_eq_ld, harg2.read_unread, harg5.read_unread, harg6.read_unread, View.ld_unit_zero (S := S8192x128) hz2, View.ld_unit_zero (S := S1x1) hz2]
  try rfl

theorem sout0_C_0_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    sout0_C_0 c i arg2 harg2 arg3 harg3 arg4 harg4 arg5 harg5 arg6 harg6 hc0 hc1 x0 xs0 xs1 = k0_pay6 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg5.read_unread, harg6.read_unread, View.ld_unit_zero (S := S8192x128) hz2, View.ld_unit_zero (S := S1x1) hz2]
  try rfl

theorem sout0_C_1_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (xs0 xs1 : Vec F S1x1 .f32) :
    sout0_C_1 c i arg2 harg2 arg3 harg3 arg4 harg4 arg5 harg5 arg6 harg6 hc0 hc1 x0 xs0 xs1 = k0_pay7 x0 xs0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero hz2]
  simp only [View.readAt_eq_ld, harg2.read_unread, harg5.read_unread, harg6.read_unread, View.ld_unit_zero (S := S8192x128) hz2, View.ld_unit_zero (S := S1x1) hz2]
  try rfl

theorem sout0_B_0_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) :
    sout0_B_0 c i arg2 harg2 arg3 harg3 arg4 harg4 arg5 harg5 arg6 harg6 hc0 hc1 x0 xs0 xs1 = k0_pay6 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg5.read_unread, harg6.read_unread, View.ld_unit_zero (S := S8192x128) hz2, View.ld_unit_zero (S := S1x1) hz2]
  try rfl

theorem sout0_B_1_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (xs0 xs1 : Vec F S1x1 .f32) :
    sout0_B_1 c i arg2 harg2 arg3 harg3 arg4 harg4 arg5 harg5 arg6 harg6 hc0 hc1 x0 xs0 xs1 = k0_pay7 x0 xs0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero hz2]
  simp only [View.readAt_eq_ld, harg2.read_unread, harg5.read_unread, harg6.read_unread, View.ld_unit_zero (S := S8192x128) hz2, View.ld_unit_zero (S := S1x1) hz2]
  try rfl

theorem sout0_A_0_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) :
    sout0_A_0 c i arg2 harg2 arg3 harg3 arg4 harg4 arg5 harg5 arg6 harg6 hc0 hc1 x0 = k0_pay6 x0 (k0_pay1 (F := F)) := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero hz2]
  simp only [View.readAt_eq_ld, harg2.read_unread, harg5.read_unread, harg6.read_unread, View.ld_unit_zero (S := S8192x128) hz2, View.ld_unit_zero (S := S1x1) hz2]
  rw [View.readCov_unit_zero arg5.view hz2]

theorem sout0_A_1_eq (c : Dev nD) (i : grid0.Coords) (arg2 : Memref sig .tc .vmem S8192x128 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) :
    sout0_A_1 c i arg2 harg2 arg3 harg3 arg4 harg4 arg5 harg5 arg6 harg6 hc0 hc1 x0 = k0_pay7 x0 (k0_pay1 (F := F)) (k0_pay2 (F := F)) := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero hz2]
  simp only [View.readAt_eq_ld, harg2.read_unread, harg5.read_unread, harg6.read_unread, View.ld_unit_zero (S := S8192x128) hz2, View.ld_unit_zero (S := S1x1) hz2]
  rw [View.readCov_unit_zero arg5.view hz2, View.readCov_unit_zero arg6.view hz2]

end Cert.KernelIdeal.Hand

end
-- ==== Proof.KernelIdeal.Val0.lean ====
/-
  The first kernel's scratch pair and its two output arrays, as the online recurrence over the tiles.

  Point t = 32 * h + i of the 64 reads tile t of the 524288 x 128 matrix: rows t * 8192 to t * 8192 + 8191, every lane.
  A half's first tile leaves in the scratch pair one step of the recurrence from the start pair; every other tile one
  more step from what the tile before left. So after point n the scratch pair is the recurrence over the first
  n mod 32 + 1 tiles of half n / 32, and the two output arrays, whose block h is written back at point 32 * h + 31 with
  the same two values, end holding the recurrence over all 32 tiles of each half.
-/
import proofs.«151102_j84679575208560_2_alg».proof.Proof.KernelIdeal.Pieces
import proofs.«151102_j84679575208560_2_alg».proof.Proof.Payloads
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Hand Cert.KernelIdeal.PayVal Cert.Softmax
open Idealize.ShloMosaic Idealize.ShloMosaic.ValueIdx Idealize.ShloMosaic.TcCoe

/-- The start value of the running maximum. -/
abbrev negStart : EReal := Ideal.ofBits .f32 0xFF333332#32

/-- The block indices at point t: tile t of the matrix, block t / 32 of each output array. -/
theorem idx_facts : ∀ t : Fin cfg0.N, win0_0.index t (0 : Fin 2) = t.val ∧ win0_0.index t (1 : Fin 2) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0 :=
  (by decide +kernel : ∀ t : Fin grid0.N, _)

/-- A point's half is one of the two. -/
theorem half_lt (n : ℕ) (hn : n < cfg0.N) : n / 32 < 2 := by
  have hN : cfg0.N = 64 := N_0
  omega

/-- The recurrence one tile further. -/
theorem run_succ (m0 l0 : EReal) (T : ℕ → Fin 8192 → Fin 128 → EReal) (k : ℕ) :
    run m0 l0 T (k + 1) = (stepM (run m0 l0 T k).1 (T k), stepL (run m0 l0 T k).1 (run m0 l0 T k).2 (T k)) := rfl

section
variable (V : (c : Dev nD) → (b : Ref sig .tc) → Buf (Elt Ideal) ((c : Thread nD τ).loc b)) (c : Dev nD)

/-- Tile i (mod 32) of half h of the matrix, by row and lane. -/
def tilesOf (h : Fin 2) (i : ℕ) (r : Fin 8192) (k : Fin 128) : EReal :=
  (V c main_v0 : S524288x128.Idx → EReal) (ix2 (⟨(h.val * 32 + i % 32) * 8192 + r.val, by omega⟩ : Fin 524288) k)

/-- The recurrence does not see how the half and the number of tiles are spelt. -/
theorem run_congr_idx (h h' : Fin 2) (k k' : ℕ) (eh : h = h') (ek : k = k') :
    run negStart 0 (tilesOf V c h) k = run negStart 0 (tilesOf V c h') k' := by
  subst eh; subst ek; rfl

/-- An entry of the tile at point t sits in the matrix at row t * 8192 + its row, same lane. -/
theorem emb0 (t : Fin cfg0.N) (r : Fin 8192) (k : Fin 128) :
    ((cfg0.win 0).blk t).view.emb (ix2 r k)
      = ix2 (⟨(t.val / 32 * 32 + t.val % 32 % 32) * 8192 + r.val, by have := half_lt t.val t.isLt; omega⟩ : Fin 524288) k := by
  obtain ⟨e0, e1, -⟩ := idx_facts t
  funext a; apply Fin.ext
  match a with
  | ⟨0, _⟩ => show win0_0.index t (0 : Fin 2) * 8192 + 1 * r.val = (t.val / 32 * 32 + t.val % 32 % 32) * 8192 + r.val; omega
  | ⟨1, _⟩ => show win0_0.index t (1 : Fin 2) * 128 + 1 * k.val = k.val; omega

/-- The tile point t reads is tile t mod 32 of half t / 32. -/
theorem tile_at (t : Fin cfg0.N) :
    tileOf (iblk0 (F := Ideal) V c 0 t) = tilesOf V c ⟨t.val / 32, half_lt t.val t.isLt⟩ (t.val % 32) := by
  funext r k
  show V c main_v0 (((cfg0.win 0).blk t).view.emb (ix2 r k)) = _
  exact congrArg (V c main_v0) (emb0 t r k)

/-- After point n the scratch pair is the recurrence over the first n mod 32 + 1 tiles of half n / 32. -/
theorem scratch_after : ∀ (n : ℕ) (hn : n < cfg0.N),
    (outsAt0 (F := Ideal) V c n hn).2.2.1 (ix2 0 0)
        = (run negStart 0 (tilesOf V c ⟨n / 32, half_lt n hn⟩) (n % 32 + 1)).1
      ∧ (outsAt0 (F := Ideal) V c n hn).2.2.2 (ix2 0 0)
        = (run negStart 0 (tilesOf V c ⟨n / 32, half_lt n hn⟩) (n % 32 + 1)).2 := by
  intro n
  induction n using Nat.strong_induction_on with
  | _ n ih =>
    intro hn
    have hN : cfg0.N = 64 := N_0
    rw [run_succ]
    dsimp only
    by_cases h0 : n % 32 = 0
    · -- a half's first tile: one step from the start pair
      have h1 : ¬n % 32 = 31 := by omega
      have e : outsAt0 (F := Ideal) V c n hn = _ := outsAt0_A V c ⟨n, hn⟩ h0 h1
      rw [e]
      dsimp only
      have hr : run negStart 0 (tilesOf V c ⟨n / 32, half_lt n hn⟩) (n % 32) = (negStart, 0) := by rw [h0]; rfl
      rw [hr]
      dsimp only
      constructor
      · rw [sout0_A_0_eq, pay6_apply, pay1_apply, tile_at V c ⟨n, hn⟩]
      · rw [sout0_A_1_eq, pay7_apply, pay1_apply, pay2_apply, tile_at V c ⟨n, hn⟩]
    · -- any other tile: one more step from what the point before left
      have hm : n - 1 < cfg0.N := by omega
      obtain ⟨ih1, ih2⟩ := ih (n - 1) (by omega) hm
      have hr : run negStart 0 (tilesOf V c ⟨(n - 1) / 32, half_lt (n - 1) hm⟩) ((n - 1) % 32 + 1)
          = run negStart 0 (tilesOf V c ⟨n / 32, half_lt n hn⟩) (n % 32) :=
        run_congr_idx V c _ _ _ _ (Fin.ext (by show (n - 1) / 32 = n / 32; omega)) (by omega)
      rw [hr] at ih1 ih2
      by_cases h1 : n % 32 = 31
      · have e : outsAt0 (F := Ideal) V c n hn = _ := outsAt0_C V c ⟨n, hn⟩ h0 h1
        rw [e]
        dsimp only
        constructor
        · rw [sout0_C_0_eq, pay6_apply, tile_at V c ⟨n, hn⟩, ih1]
        · rw [sout0_C_1_eq, pay7_apply, tile_at V c ⟨n, hn⟩, ih1, ih2]
      · have e : outsAt0 (F := Ideal) V c n hn = _ := outsAt0_B V c ⟨n, hn⟩ h0 h1
        rw [e]
        dsimp only
        constructor
        · rw [sout0_B_0_eq, pay6_apply, tile_at V c ⟨n, hn⟩, ih1]
        · rw [sout0_B_1_eq, pay7_apply, tile_at V c ⟨n, hn⟩, ih1, ih2]

/-! ## The output arrays -/

/-- At a half's last tile the two output blocks hold the recurrence over all 32 tiles of the half, at their one entry. -/
theorem last_tile (t : Fin cfg0.N) (h1 : t.val % 32 = 31) (j : S1x1x1.Idx) :
    (outsAt0 (F := Ideal) V c t.val t.isLt).1 j
        = (run negStart 0 (tilesOf V c ⟨t.val / 32, half_lt t.val t.isLt⟩) 32).1
      ∧ (outsAt0 (F := Ideal) V c t.val t.isLt).2.1 j
        = (run negStart 0 (tilesOf V c ⟨t.val / 32, half_lt t.val t.isLt⟩) 32).2 := by
  have hN : cfg0.N = 64 := N_0
  have ht : t.val < cfg0.N := t.isLt
  have h0 : ¬t.val % 32 = 0 := by omega
  have hm : t.val - 1 < cfg0.N := by omega
  obtain ⟨s1, s2⟩ := scratch_after V c (t.val - 1) hm
  have hr : run negStart 0 (tilesOf V c ⟨(t.val - 1) / 32, half_lt (t.val - 1) hm⟩) ((t.val - 1) % 32 + 1)
      = run negStart 0 (tilesOf V c ⟨t.val / 32, half_lt t.val t.isLt⟩) 31 :=
    run_congr_idx V c _ _ _ _ (Fin.ext (by show (t.val - 1) / 32 = t.val / 32; omega)) (by omega)
  rw [hr] at s1 s2
  have e32 : run negStart 0 (tilesOf V c ⟨t.val / 32, half_lt t.val t.isLt⟩) 32
      = run negStart 0 (tilesOf V c ⟨t.val / 32, half_lt t.val t.isLt⟩) (31 + 1) := rfl
  rw [e32, run_succ]
  dsimp only
  have hT : tileOf (iblk0 (F := Ideal) V c 0 t) = tilesOf V c ⟨t.val / 32, half_lt t.val t.isLt⟩ 31 := by
    rw [tile_at V c t, h1]
  rw [outsAt0_C V c t h0 h1]
  dsimp only
  constructor
  · rw [out0_C_1_eq, pay8_apply, hT, s1]
  · rw [out0_C_2_eq, pay9_apply, hT, s1, s2]

/-- The first output array as a function of its index: the running maximum after all 32 tiles of the half. -/
def G1 : S2x1x1.Idx → EReal := fun i =>
  (run negStart 0 (tilesOf V c ⟨(i 0).val, (show (i 0).val < 2 from (i 0).isLt)⟩) 32).1

/-- The second output array as a function of its index: the running sum after all 32 tiles of the half. -/
def G2 : S2x1x1.Idx → EReal := fun i =>
  (run negStart 0 (tilesOf V c ⟨(i 0).val, (show (i 0).val < 2 from (i 0).isLt)⟩) 32).2

/-- The one entry of point t's block of an output array sits at index (t / 32, 0, 0). -/
theorem emb1 (t : Fin cfg0.N) : (((cfg0.win 1).blk t).view.emb (ix3 0 0 0) (0 : Fin 3)).val = t.val / 32 := by
  obtain ⟨-, -, e2, -⟩ := idx_facts t
  show win0_1.index t (0 : Fin 3) * 1 + 1 * 0 = t.val / 32
  omega

theorem emb2 (t : Fin cfg0.N) : (((cfg0.win 2).blk t).view.emb (ix3 0 0 0) (0 : Fin 3)).val = t.val / 32 := by
  obtain ⟨-, -, -, -, -, e5, -⟩ := idx_facts t
  show win0_2.index t (0 : Fin 3) * 1 + 1 * 0 = t.val / 32
  omega

/-- What a writing-back point writes back is its block of G1. -/
theorem flushed1_eq (t : Fin cfg0.N) (hf : (cfg0.win 1).flush t = true) :
    (dat0 (F := Ideal) V c).flushed 1 t = ((cfg0.win 1).blk t).view.read (Elt Ideal) (G1 V c) := by
  have h1 : t.val % 32 = 31 := (flush0_1 t).mp hf
  show (cfg0.win 1).cut (grid0.coords t) ((dat0 V c).after 1 t) = _
  rw [after0_1]
  refine funext fun (j : S1x1x1.Idx) => ?_
  show (outsAt0 (F := Ideal) V c t.val t.isLt).1 j = G1 V c (((cfg0.win 1).blk t).view.emb j)
  rw [(last_tile V c t h1 j).1, idx111 j]
  unfold G1
  exact congrArg (fun h => (run negStart 0 (tilesOf V c h) 32).1) (Fin.ext (emb1 t).symm)

theorem flushed2_eq (t : Fin cfg0.N) (hf : (cfg0.win 2).flush t = true) :
    (dat0 (F := Ideal) V c).flushed 2 t = ((cfg0.win 2).blk t).view.read (Elt Ideal) (G2 V c) := by
  have h1 : t.val % 32 = 31 := (flush0_2 t).mp hf
  show (cfg0.win 2).cut (grid0.coords t) ((dat0 V c).after 2 t) = _
  rw [after0_2]
  refine funext fun (j : S1x1x1.Idx) => ?_
  show (outsAt0 (F := Ideal) V c t.val t.isLt).2.1 j = G2 V c (((cfg0.win 2).blk t).view.emb j)
  rw [(last_tile V c t h1 j).2, idx111 j]
  unfold G2
  exact congrArg (fun h => (run negStart 0 (tilesOf V c h) 32).2) (Fin.ext (emb2 t).symm)

/-- An index of an output array is in point t's block iff each coordinate is in the block's range on its axis. -/
theorem mem_blk1 (t : Fin cfg0.N) (i : S2x1x1.Idx) :
    i ∈ ((cfg0.win 1).blk t).view.set ↔ ∀ a : Fin 3, win0_1.index t a * S1x1x1.size a ≤ (i a).val
      ∧ (i a).val < win0_1.index t a * S1x1x1.size a + S1x1x1.size a := by
  show i ∈ ((View.whole main_v1_0).slice (win0_1.rect t)).set ↔ _
  rw [View.set_slice_whole, Rect.mem_set_unit]
  exact Iff.rfl

theorem mem_blk2 (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v1_1).slice (win0_2.rect t)).set ↔ _
  rw [View.set_slice_whole, Rect.mem_set_unit]
  exact Iff.rfl

/-- Every index of an output array lies in the block of its half's last point, which writes back. -/
theorem cover1 (i : S2x1x1.Idx) :
    ∃ t : Fin cfg0.N, (cfg0.win 1).flush t = true ∧ i ∈ ((cfg0.win 1).blk t).view.set := by
  have hN : cfg0.N = 64 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 32 * (i 0).val + 31 := ⟨⟨32 * (i 0).val + 31, by omega⟩, rfl⟩
  obtain ⟨-, -, e2, e3, e4, -⟩ := idx_facts t
  refine ⟨t, (flush0_1 t).mpr (by omega), ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 1 ≤ (i 2).val ∧ (i 2).val < win0_1.index t (2 : Fin 3) * 1 + 1; omega

theorem cover2 (i : S2x1x1.Idx) :
    ∃ t : Fin cfg0.N, (cfg0.win 2).flush t = true ∧ i ∈ ((cfg0.win 2).blk t).view.set := by
  have hN : cfg0.N = 64 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 32 * (i 0).val + 31 := ⟨⟨32 * (i 0).val + 31, by omega⟩, rfl⟩
  obtain ⟨-, -, -, -, -, e5, e6, e7⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- The first output array ends holding each half's running maximum after its 32 tiles. -/
theorem final0_1 (h : Fin 2) :
    ((dat0 (F := Ideal) V c).arrAt 1 cfg0.N : S2x1x1.Idx → EReal) (ix3 h 0 0) = (run negStart 0 (tilesOf V c h) 32).1 := by
  rw [(dat0 (F := Ideal) V c).arrAt_eq_of_cover 1 (G1 V c) (flushed1_eq V c) (cover1)]
  rfl

/-- The second output array ends holding each half's running sum after its 32 tiles. -/
theorem final0_2 (h : Fin 2) :
    ((dat0 (F := Ideal) V c).arrAt 2 cfg0.N : S2x1x1.Idx → EReal) (ix3 h 0 0) = (run negStart 0 (tilesOf V c h) 32).2 := by
  rw [(dat0 (F := Ideal) V c).arrAt_eq_of_cover 2 (G2 V c) (flushed2_eq V c) (cover2)]
  rfl

end

end Cert.KernelIdeal.Val0

end
-- ==== Proof.KernelIdeal.Val1.lean ====
/-
  The second kernel's output array after its 64 points, as one function of the contents the region is entered with.

  Point t reads tile t of the 524288 x 128 matrix (rows t * 8192 to t * 8192 + 8191, every lane) and the one entry of
  each of two one-by-one arrays, m and s, and writes back tile t of the output with exp (x - m) * s entry by entry.
  An entry of tile t at row r and lane k sits at row t * 8192 + r and lane k of the matrix, for the input and for the
  output alike, and the one-by-one blocks sit at (0, 0). Every row i of the matrix lies in tile i / 8192, which is
  written back; so the output array ends holding exp (x - m) * s at every index.
-/
import proofs.«151102_j84679575208560_2_alg».proof.Proof.KernelIdeal.R1
import proofs.«151102_j84679575208560_2_alg».proof.Proof.Payloads
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Hand Cert.KernelIdeal.PayVal
open Idealize.ShloMosaic Idealize.ShloMosaic.ValueIdx Idealize.ShloMosaic.TcCoe

/-- The zero offsets of a whole-buffer access. -/
theorem hz : (![0, 0] : Fin 2 → Nat) = fun _ => 0 := funext fun a => by fin_cases a <;> rfl

/-- One entry of the output from the entry x of the matrix, the maximum m and the reciprocal s: exp (x - m) * s. -/
abbrev E (a m s : EReal) : EReal := Ideal.exp (a - m) * s

/-- The output as a function of the matrix and the two one-entry arrays: exp (x - m) * s at every index. -/
abbrev G (a0 : S524288x128.Idx → EReal) (m s : S1x1.Idx → EReal) : S524288x128.Idx → EReal :=
  fun i => E (a0 i) (m (ix2 0 0)) (s (ix2 0 0))

/-- The stored value at any entry of the tile. -/
theorem pay_read (X : Vec Ideal S8192x128 .f32) (mf sf : Vec Ideal S1x1 .f32) (j : S8192x128.Idx) :
    k1_pay1 X mf sf j = Ideal.exp (X j - mf (ix2 0 0)) * sf (ix2 0 0) :=
  (congrArg (k1_pay1 X mf sf) (eq_ix2 j)).trans ((k1_pay1_apply X mf sf (j 0) (j 1)).trans
    (congrArg (fun i => Ideal.exp (X i - mf (ix2 0 0)) * sf (ix2 0 0)) (eq_ix2 j).symm))

/-- The block indices at point t: tile t for the matrix and for the output, block (0, 0) for the one-entry arrays. -/
theorem idx_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is tile t of G of the arrays as the region finds them. -/
theorem flushed_eq (c : Dev nD) (t : Fin cfg1.N) :
    (dat1 (F := Ideal) V c).flushed 3 t
      = ((cfg1.win 3).blk t).view.read (Elt Ideal) (G (V c main_v0) (V c main_v18) (V c main_v20)) := by
  show (cfg1.win 3).cut (grid1.coords t) ((dat1 V c).after 3 t) = _
  rw [after1_3]
  unfold out1_3
  rw [View.canon_unit_zero hz]
  simp only [View.ld_unit_zero (S := S8192x128) hz, View.ld_unit_zero (S := S1x1) hz]
  obtain ⟨e0, e1, e2, e3, e4, e5, e6, e7⟩ := idx_facts t
  funext j
  show k1_pay1 (iblk1 V c 0 t) (iblk1 V c 1 t) (iblk1 V c 2 t) j
      = G (V c main_v0) (V c main_v18) (V c main_v20) (((cfg1.win 3).blk t).view.emb j)
  refine (pay_read _ _ _ j).trans ?_
  show E (V c main_v0 (((cfg1.win 0).blk t).view.emb j)) (V c main_v18 (((cfg1.win 1).blk t).view.emb (ix2 0 0)))
        (V c main_v20 (((cfg1.win 2).blk t).view.emb (ix2 0 0)))
      = E (V c main_v0 (((cfg1.win 3).blk t).view.emb j)) (V c main_v18 (ix2 0 0)) (V c main_v20 (ix2 0 0))
  have h0 : ((cfg1.win 0).blk t).view.emb j = ((cfg1.win 3).blk t).view.emb j := by
    funext a; apply Fin.ext
    match a with
    | ⟨0, _⟩ => show win1_0.index t (0 : Fin 2) * 8192 + 1 * (j 0).val = win1_3.index t (0 : Fin 2) * 8192 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 0 0) = ix2 0 0 := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  have h2 : ((cfg1.win 2).blk t).view.emb (ix2 0 0) = ix2 0 0 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]

end

/-- An index of the output array is in point t's block iff each coordinate is in the block's range on its axis. -/
theorem mem_blk (t : Fin cfg1.N) (i : S524288x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v21).slice (win1_3.rect t)).set ↔ _
  rw [View.set_slice_whole, Rect.mem_set_unit]
  exact Iff.rfl

/-- Every index of the output array lies in the block of a point that writes back: row i is in tile i / 8192. -/
theorem cover (i : S524288x128.Idx) :
    ∃ t : Fin cfg1.N, (cfg1.win 3).flush t = true ∧ i ∈ ((cfg1.win 3).blk t).view.set := by
  have hi0 : (i 0).val < 524288 := (i 0).isLt
  have hi1 : (i 1).val < 128 := (i 1).isLt
  have hN : grid1.N = 64 := N_1
  obtain ⟨t, ht⟩ : ∃ t : Fin cfg1.N, t.val = (i 0).val / 8192 :=
    ⟨⟨(i 0).val / 8192, by show (i 0).val / 8192 < grid1.N; omega⟩, rfl⟩
  obtain ⟨e0, e1, e2, e3, e4, e5, e6, e7⟩ := idx_facts t
  refine ⟨t, flush1_3 t, ?_⟩
  rw [mem_blk]
  intro a
  match a with
  | ⟨0, _⟩ =>
    show win1_3.index t (0 : Fin 2) * 8192 ≤ (i 0).val ∧ (i 0).val < win1_3.index t (0 : Fin 2) * 8192 + 8192
    omega
  | ⟨1, _⟩ =>
    show win1_3.index t (1 : Fin 2) * 128 ≤ (i 1).val ∧ (i 1).val < win1_3.index t (1 : Fin 2) * 128 + 128
    omega

/-- The output array after the 64 points: exp (x - m) * s of the entry contents, at every index. -/
theorem final1 (V : (c : Dev nD) → (b : Ref sig .tc) → Buf (Elt Ideal) ((c : Thread nD τ).loc b)) (c : Dev nD) :
    (dat1 (F := Ideal) V c).arrAt 3 cfg1.N
      = fun i : S524288x128.Idx =>
          Ideal.exp (@HSub.hSub EReal EReal EReal _ (V c main_v0 i) (V c main_v18 (ix2 0 0))) * V c main_v20 (ix2 0 0) :=
  (dat1 (F := Ideal) V c).arrAt_eq_of_cover 3 (G (V c main_v0) (V c main_v18) (V c main_v20))
    (fun t _ => flushed_eq V c t) cover

end Cert.KernelIdeal.Val1

end
-- ==== Proof.Laws.lean ====
/-
  The softmax law: a softmax accumulated tile by tile equals the plain softmax.

  Over real inputs every quantity of the online recurrence of Spec.lean stays a real number: the running maximum is a
  real, and the running sum after n tiles is the sum of exp (x - m) over the entries seen so far, m the running
  maximum reached (the rescaling law exp (a - μ) * exp (μ - ν) = exp (a - ν)). Merging the two halves gives the sum of
  exp (x - m) over the whole vector, and a softmax does not depend on the shift m: exp (x j - m) / Σ exp (x i - m)
  is the same number for every real m.
-/
import proofs.«151102_j84679575208560_2_alg».proof.Proof.Spec
import Mathlib.Data.EReal.Inv
import Mathlib.Algebra.BigOperators.Fin
import Mathlib.Algebra.BigOperators.Intervals
import Mathlib.Analysis.SpecialFunctions.Exp

noncomputable section

open scoped BigOperators

namespace Cert.Softmax

open Idealize.ShloMosaic

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two numbers. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The exponential of the ideal reading is the real exponential on a difference of reals. -/
theorem exp_coe_sub (a b : ℝ) : Ideal.exp ((a : EReal) - (b : EReal)) = ((Real.exp (a - b) : ℝ) : EReal) := rfl

/-- A maximum seeded with -∞ over a nonempty finite family of reals is a real. -/
theorem fold_max_real {ι : Type*} {s : Finset ι} (hs : s.Nonempty) (f : ι → ℝ) :
    ∃ t : ℝ, s.fold max (⊥ : EReal) (fun i => (f i : EReal)) = (t : EReal) := by
  induction hs using Finset.Nonempty.cons_induction with
  | singleton a => exact ⟨f a, by rw [Finset.fold_singleton, max_bot_right]⟩
  | cons a s h hs ih =>
    obtain ⟨t, ht⟩ := ih
    exact ⟨max (f a) t, by rw [Finset.fold_cons, ht, coe_max]⟩

/-- The maximum of a tile of reals is a real. -/
theorem tileMax_real (X : Fin 8192 → Fin 128 → ℝ) :
    ∃ t : ℝ, tileMax (fun r k => ((X r k : ℝ) : EReal)) = (t : EReal) := by
  have h8192 : (Finset.univ : Finset (Fin 8192)).Nonempty := ⟨⟨0, by norm_num⟩, Finset.mem_univ _⟩
  have h128 : (Finset.univ : Finset (Fin 128)).Nonempty := ⟨⟨0, by norm_num⟩, Finset.mem_univ _⟩
  choose g hg using fun k : Fin 128 => fold_max_real h8192 (fun r => X r k)
  obtain ⟨t, ht⟩ := fold_max_real h128 g
  refine ⟨t, ?_⟩
  unfold tileMax
  rw [← ht]
  exact congrArg (fun F : Fin 128 → EReal => (Finset.univ : Finset (Fin 128)).fold max (⊥ : EReal) F) (funext hg)

/-- The sum of a tile of reals, shifted by a real, is the real sum. -/
theorem tileSum_real (X : Fin 8192 → Fin 128 → ℝ) (ν : ℝ) :
    tileSum (fun r k => ((X r k : ℝ) : EReal)) (ν : EReal)
      = ((∑ k : Fin 128, ∑ r : Fin 8192, Real.exp (X r k - ν) : ℝ) : EReal) := by
  unfold tileSum
  rw [coe_sum]
  refine Finset.sum_congr rfl fun k _ => ?_
  rw [coe_sum]
  exact Finset.sum_congr rfl fun r _ => exp_coe_sub (X r k) ν

/-- One step of the recurrence from a real pair over a tile of reals: the new maximum is a real, and the new sum is
the old one rescaled plus the tile's sum. -/
theorem step_real (μ S : ℝ) (X : Fin 8192 → Fin 128 → ℝ) :
    ∃ ν : ℝ, stepM (μ : EReal) (fun r k => ((X r k : ℝ) : EReal)) = (ν : EReal) ∧
      stepL (μ : EReal) (S : EReal) (fun r k => ((X r k : ℝ) : EReal))
        = ((S * Real.exp (μ - ν) + ∑ k : Fin 128, ∑ r : Fin 8192, Real.exp (X r k - ν) : ℝ) : EReal) := by
  obtain ⟨t, ht⟩ := tileMax_real X
  have hM : stepM (μ : EReal) (fun r k => ((X r k : ℝ) : EReal)) = ((max μ t : ℝ) : EReal) := by
    unfold stepM
    rw [ht, coe_max]
  refine ⟨max μ t, hM, ?_⟩
  unfold stepL
  rw [hM, tileSum_real, exp_coe_sub, ← EReal.coe_mul, ← EReal.coe_add]

/-! ### The recurrence over tiles of reals -/

/-- The rescaling law under a finite sum: a sum of exp (a - μ), multiplied by exp (μ - ν), is the sum of exp (a - ν). -/
theorem rescale_sum {ι : Type*} (s : Finset ι) (a : ι → ℝ) (μ ν : ℝ) :
    (∑ i ∈ s, Real.exp (a i - μ)) * Real.exp (μ - ν) = ∑ i ∈ s, Real.exp (a i - ν) := by
  rw [Finset.sum_mul]
  refine Finset.sum_congr rfl fun i _ => ?_
  rw [← Real.exp_add]
  exact congrArg Real.exp (by ring)

/-- The same law over the entries of the first n tiles of a sequence. -/
theorem rescale_tiles (a : ℕ → Fin 8192 → Fin 128 → ℝ) (n : ℕ) (μ ν : ℝ) :
    (∑ i ∈ Finset.range n, ∑ k : Fin 128, ∑ r : Fin 8192, Real.exp (a i r k - μ)) * Real.exp (μ - ν)
      = ∑ i ∈ Finset.range n, ∑ k : Fin 128, ∑ r : Fin 8192, Real.exp (a i r k - ν) := by
  rw [Finset.sum_mul]
  refine Finset.sum_congr rfl fun i _ => ?_
  rw [Finset.sum_mul]
  exact Finset.sum_congr rfl fun k _ => rescale_sum Finset.univ (fun r => a i r k) μ ν

/-- After n tiles of reals, from a real start and a zero sum, the running maximum is a real μ and the running sum is
the sum of exp (x - μ) over the entries of the n tiles. -/
theorem run_real (m0 : ℝ) (T : ℕ → Fin 8192 → Fin 128 → ℝ) (n : ℕ) :
    ∃ μ : ℝ, (run (m0 : EReal) 0 (fun i r k => ((T i r k : ℝ) : EReal)) n).1 = (μ : EReal) ∧
      (run (m0 : EReal) 0 (fun i r k => ((T i r k : ℝ) : EReal)) n).2
        = ((∑ i ∈ Finset.range n, ∑ k : Fin 128, ∑ r : Fin 8192, Real.exp (T i r k - μ) : ℝ) : EReal) := by
  induction n with
  | zero => exact ⟨m0, rfl, by rw [Finset.sum_range_zero]; rfl⟩
  | succ n ih =>
    obtain ⟨μ, h1, h2⟩ := ih
    obtain ⟨ν, hM, hL⟩ := step_real μ
      (∑ i ∈ Finset.range n, ∑ k : Fin 128, ∑ r : Fin 8192, Real.exp (T i r k - μ)) (T n)
    refine ⟨ν, ?_, ?_⟩
    · show stepM (run (m0 : EReal) 0 (fun i r k => ((T i r k : ℝ) : EReal)) n).1
          (fun r k => ((T n r k : ℝ) : EReal)) = (ν : EReal)
      rw [h1]
      exact hM
    · show stepL (run (m0 : EReal) 0 (fun i r k => ((T i r k : ℝ) : EReal)) n).1
          (run (m0 : EReal) 0 (fun i r k => ((T i r k : ℝ) : EReal)) n).2
          (fun r k => ((T n r k : ℝ) : EReal)) = _
      rw [h1, h2, hL, Finset.sum_range_succ, rescale_tiles]

/-! ### The blocked order of summation -/

/-- The entries of tile i of half c as reals, as a sequence indexed by the naturals (only i < 32 is used). -/
def tileR (x : Fin 67108864 → ℝ) (c : Fin 2) (i : ℕ) (r : Fin 8192) (k : Fin 128) : ℝ :=
  x ⟨((c.val * 32 + i % 32) * 8192 + r.val) * 128 + k.val, by omega⟩

/-- The same entries in the extended reals. -/
def tileE (x : Fin 67108864 → ℝ) (c : Fin 2) (i : ℕ) (r : Fin 8192) (k : Fin 128) : EReal :=
  ((tileR x c i r k : ℝ) : EReal)

/-- A sum over the first A * B naturals, taken as A blocks of B. -/
theorem sum_range_blocks (g : ℕ → ℝ) (A B : ℕ) :
    ∑ n ∈ Finset.range (A * B), g n = ∑ a ∈ Finset.range A, ∑ b ∈ Finset.range B, g (a * B + b) := by
  induction A with
  | zero => simp
  | succ A ih => rw [add_one_mul, Finset.sum_range_add, ih, Finset.sum_range_succ]

/-- A sum over the first 2^26 naturals in the order half, tile, lane, row. -/
theorem sum_range_blocked (g : ℕ → ℝ) :
    ∑ n ∈ Finset.range 67108864, g n
      = ∑ c ∈ Finset.range 2, ∑ i ∈ Finset.range 32, ∑ k ∈ Finset.range 128, ∑ r ∈ Finset.range 8192,
          g (((c * 32 + i % 32) * 8192 + r) * 128 + k) := by
  have h : (67108864 : ℕ) = 2 * 32 * 8192 * 128 := by norm_num
  rw [h, sum_range_blocks g (2 * 32 * 8192) 128,
    sum_range_blocks (fun t => ∑ k ∈ Finset.range 128, g (t * 128 + k)) (2 * 32) 8192,
    sum_range_blocks
      (fun u => ∑ r ∈ Finset.range 8192, ∑ k ∈ Finset.range 128, g ((u * 8192 + r) * 128 + k)) 2 32]
  refine Finset.sum_congr rfl fun c _ => Finset.sum_congr rfl fun i hi => ?_
  rw [Nat.mod_eq_of_lt (Finset.mem_range.1 hi)]
  exact Finset.sum_comm

/-- A function on the vector's positions, continued by zero to all naturals. -/
def extend (f : Fin 67108864 → ℝ) (n : ℕ) : ℝ := if h : n < 67108864 then f ⟨n, h⟩ else 0

theorem extend_eq (f : Fin 67108864 → ℝ) (n : ℕ) (h : n < 67108864) : extend f n = f ⟨n, h⟩ := dif_pos h

/-- A sum over the whole vector in the order half, tile, lane, row. -/
theorem sum_blocked (f : Fin 67108864 → ℝ) :
    ∑ j, f j = ∑ c : Fin 2, ∑ i ∈ Finset.range 32, ∑ k : Fin 128, ∑ r : Fin 8192,
      f ⟨((c.val * 32 + i % 32) * 8192 + r.val) * 128 + k.val, by omega⟩ := by
  calc ∑ j, f j = ∑ j : Fin 67108864, extend f j.val :=
        Finset.sum_congr rfl fun j _ => (extend_eq f j.val j.isLt).symm
    _ = ∑ n ∈ Finset.range 67108864, extend f n := Fin.sum_univ_eq_sum_range (extend f) 67108864
    _ = ∑ c ∈ Finset.range 2, ∑ i ∈ Finset.range 32, ∑ k ∈ Finset.range 128, ∑ r ∈ Finset.range 8192,
          extend f (((c * 32 + i % 32) * 8192 + r) * 128 + k) := sum_range_blocked (extend f)
    _ = ∑ c : Fin 2, ∑ i ∈ Finset.range 32, ∑ k : Fin 128, ∑ r : Fin 8192,
          extend f (((c.val * 32 + i % 32) * 8192 + r.val) * 128 + k.val) := by
        rw [← Fin.sum_univ_eq_sum_range (fun c => ∑ i ∈ Finset.range 32, ∑ k ∈ Finset.range 128,
          ∑ r ∈ Finset.range 8192, extend f (((c * 32 + i % 32) * 8192 + r) * 128 + k)) 2]
        refine Finset.sum_congr rfl fun c _ => Finset.sum_congr rfl fun i _ => ?_
        rw [← Fin.sum_univ_eq_sum_range (fun k => ∑ r ∈ Finset.range 8192,
          extend f (((c.val * 32 + i % 32) * 8192 + r) * 128 + k)) 128]
        refine Finset.sum_congr rfl fun k _ => ?_
        exact (Fin.sum_univ_eq_sum_range
          (fun r => extend f (((c.val * 32 + i % 32) * 8192 + r) * 128 + k.val)) 8192).symm
    _ = _ := Finset.sum_congr rfl fun c _ => Finset.sum_congr rfl fun i _ =>
        Finset.sum_congr rfl fun k _ => Finset.sum_congr rfl fun r _ => extend_eq f _ _

/-! ### The two halves merged, and the law -/

/-- Merging two real pairs: the merged maximum is the larger one, the merged sum is the two sums rescaled to it. -/
theorem combine_real (μ0 S0 μ1 S1 : ℝ) :
    combineM (μ0 : EReal) (μ1 : EReal) = ((max μ0 μ1 : ℝ) : EReal) ∧
      combineL (μ0 : EReal) (S0 : EReal) (μ1 : EReal) (S1 : EReal)
        = ((S0 * Real.exp (μ0 - max μ0 μ1) + S1 * Real.exp (μ1 - max μ0 μ1) : ℝ) : EReal) := by
  have hM : combineM (μ0 : EReal) (μ1 : EReal) = ((max μ0 μ1 : ℝ) : EReal) := coe_max μ0 μ1
  refine ⟨hM, ?_⟩
  unfold combineL
  rw [hM, exp_coe_sub, exp_coe_sub, ← EReal.coe_mul, ← EReal.coe_mul, ← EReal.coe_add]

/-- The quotient of the ideal reading on reals, the divisor not zero, is the real quotient. -/
theorem div_coe (a b : ℝ) (hb : b ≠ 0) : Ideal.div (a : EReal) (b : EReal) = ((a * b⁻¹ : ℝ) : EReal) := by
  unfold Ideal.div
  rw [if_neg (EReal.coe_ne_zero.2 hb), ← EReal.coe_inv, ← EReal.coe_mul]

/-- The two halves' sums, each rescaled to a common shift m, add up to the sum of exp (x - m) over the whole vector. -/
theorem halves_total (x : Fin 67108864 → ℝ) (μ0 μ1 m : ℝ) :
    (∑ i ∈ Finset.range 32, ∑ k : Fin 128, ∑ r : Fin 8192, Real.exp (tileR x 0 i r k - μ0)) * Real.exp (μ0 - m)
      + (∑ i ∈ Finset.range 32, ∑ k : Fin 128, ∑ r : Fin 8192, Real.exp (tileR x 1 i r k - μ1)) * Real.exp (μ1 - m)
      = ∑ j, Real.exp (x j - m) := by
  rw [rescale_tiles, rescale_tiles, sum_blocked (fun j => Real.exp (x j - m)), Fin.sum_univ_two]
  rfl

/-- A softmax does not depend on the shift. -/
theorem softmax_shift {ι : Type*} [Fintype ι] (x : ι → ℝ) (m M : ℝ) (j : ι) :
    Real.exp (x j - m) * (∑ i, Real.exp (x i - m))⁻¹ = Real.exp (x j - M) * (∑ i, Real.exp (x i - M))⁻¹ := by
  have hs : ∑ i, Real.exp (x i - m) = (∑ i, Real.exp (x i - M)) * Real.exp (M - m) :=
    (rescale_sum Finset.univ x M m).symm
  have hj : Real.exp (x j - m) = Real.exp (x j - M) * Real.exp (M - m) := by
    rw [← Real.exp_add]
    exact congrArg Real.exp (by ring)
  rw [hs, hj, mul_inv, mul_mul_mul_comm, mul_inv_cancel₀ (Real.exp_ne_zero _), mul_one]

/-- THE LAW: the entry computed from the two halves' running pairs is the softmax entry of the plain formula. -/
theorem kernel_eq_reference (neg : ℝ) (x : Fin 67108864 → ℝ) (M : ℝ) (j : Fin 67108864) :
    Ideal.exp ((x j : EReal) - combineM (run (neg : EReal) 0 (tileE x 0) 32).1 (run (neg : EReal) 0 (tileE x 1) 32).1)
        * Ideal.div 1 (combineL (run (neg : EReal) 0 (tileE x 0) 32).1 (run (neg : EReal) 0 (tileE x 0) 32).2
                                 (run (neg : EReal) 0 (tileE x 1) 32).1 (run (neg : EReal) 0 (tileE x 1) 32).2)
      = Ideal.div (Ideal.exp ((x j : EReal) - (M : EReal))) (∑ i : Fin 67108864, Ideal.exp ((x i : EReal) - (M : EReal))) := by
  obtain ⟨μ0, h01, h02⟩ := run_real neg (tileR x 0) 32
  obtain ⟨μ1, h11, h12⟩ := run_real neg (tileR x 1) 32
  have hE : ∀ c : Fin 2, tileE x c = fun i r k => ((tileR x c i r k : ℝ) : EReal) := fun _ => rfl
  obtain ⟨hM, hL⟩ := combine_real μ0
    (∑ i ∈ Finset.range 32, ∑ k : Fin 128, ∑ r : Fin 8192, Real.exp (tileR x 0 i r k - μ0)) μ1
    (∑ i ∈ Finset.range 32, ∑ k : Fin 128, ∑ r : Fin 8192, Real.exp (tileR x 1 i r k - μ1))
  rw [halves_total] at hL
  have hpos : ∀ s : ℝ, (∑ i, Real.exp (x i - s)) ≠ 0 := fun s =>
    (Finset.sum_pos (fun i _ => Real.exp_pos (x i - s)) ⟨j, Finset.mem_univ j⟩).ne'
  have hR : ∑ i : Fin 67108864, Ideal.exp ((x i : EReal) - (M : EReal))
      = ((∑ i, Real.exp (x i - M) : ℝ) : EReal) := by
    rw [coe_sum]
    exact Finset.sum_congr rfl fun i _ => exp_coe_sub (x i) M
  have hD : Ideal.div 1 ((∑ i, Real.exp (x i - max μ0 μ1) : ℝ) : EReal)
      = ((1 * (∑ i, Real.exp (x i - max μ0 μ1))⁻¹ : ℝ) : EReal) := div_coe 1 _ (hpos _)
  rw [hE 0, hE 1, h01, h02, h11, h12, hM, hL, hR, hD, exp_coe_sub, exp_coe_sub, div_coe _ _ (hpos M),
    ← EReal.coe_mul, one_mul]
  exact congrArg Real.toEReal (softmax_shift x (max μ0 μ1) M j)

end Cert.Softmax

end
-- ==== Proof.KernelIdeal.Value.lean ====
/-
  The idealized kernel program's result, entry by entry, for a real-valued argument.

  Entry j of the result is exp (x j - m) * (1 / l), where (m, l) merges the two halves' pairs and each half's pair is the
  online recurrence over its 32 tiles of the argument. That is the softmax of x, which does not depend on the shift: it
  equals exp (x j - M) / sum_i exp (x i - M) for any real M.
-/
import proofs.«151102_j84679575208560_2_alg».proof.Proof.KernelIdeal.Chain
import proofs.«151102_j84679575208560_2_alg».proof.Proof.KernelIdeal.Val0
import proofs.«151102_j84679575208560_2_alg».proof.Proof.KernelIdeal.Val1
import proofs.«151102_j84679575208560_2_alg».proof.Proof.Laws

set_option maxRecDepth 16384

noncomputable section

namespace Cert.KernelIdeal.Value

open Cert.KernelIdeal Cert.KernelIdeal.Gen Cert.KernelIdeal.Hand Cert.KernelIdeal.Chain Cert.KernelIdeal.Val0 Cert.KernelIdeal.Val1 Cert.Softmax
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The start value of the running maximum is a (very negative) real number, not an infinity. -/
theorem negStart_real : ∃ r : ℝ, negStart = (r : EReal) := by
  show ∃ r : ℝ, Ideal.ieee 8 23 (0xFF333332#32 : BitVec 32) = (r : EReal)
  unfold Ideal.ieee
  dsimp only
  rw [if_neg (by decide), if_neg (by decide)]
  exact ⟨_, rfl⟩

/-- Entry j of the result, for an argument of real numbers and any real shift M. -/
theorem kernel_value (hx : ∀ i, ∃ r : ℝ, arg m c i = (r : EReal)) (M : ℝ) (j : Fin 67108864) :
    (B5 m ρ c (Proc.devRef .tc main_v22) : S67108864.Idx → EReal) (ix1 j)
      = Ideal.div (Ideal.exp (arg m c (ix1 j) - (M : EReal))) (∑ i : Fin 67108864, Ideal.exp (arg m c (ix1 i) - (M : EReal))) := by
  choose xr hxr using hx
  obtain ⟨neg, hneg⟩ := negStart_real
  have hxi : ∀ i : Fin 67108864, arg m c (ix1 i) = (((fun i : Fin 67108864 => xr (ix1 i)) i : ℝ) : EReal) := fun i => hxr (ix1 i)
  have ht : ∀ h : Fin 2, tilesOf (E1 m ρ) c h = tileE (fun i : Fin 67108864 => xr (ix1 i)) h := by
    intro h; funext i r k
    unfold tilesOf
    rw [E1_v0_apply, hxr]
    rfl
  have hj : (⟨(⟨j.val / 128, by omega⟩ : Fin 524288).val * 128 + (⟨j.val % 128, by omega⟩ : Fin 128).val, by omega⟩ : Fin 67108864) = j :=
    Fin.ext (by show j.val / 128 * 128 + j.val % 128 = j.val; omega)
  rw [B5_v22_apply, E4_v21, final1 (E3 m ρ) c]
  dsimp only
  rw [E3_v0, E1_v0_apply, E3_v18, E3_v20, E2_v1_0, E2_v1_1, final0_1, final0_1, final0_2, final0_2, ht 0, ht 1, hneg, hj, hxi j,
    show (∑ i : Fin 67108864, Ideal.exp (arg m c (ix1 i) - (M : EReal)))
      = ∑ i : Fin 67108864, Ideal.exp ((((fun i : Fin 67108864 => xr (ix1 i)) i : ℝ) : EReal) - (M : EReal))
      from Finset.sum_congr rfl (fun i _ => by rw [hxi i])]
  exact kernel_eq_reference neg (fun i : Fin 67108864 => xr (ix1 i)) M j

end Cert.KernelIdeal.Value

end
-- ==== Proof.RefSide.lean ====
/-
  The reference's side of the certificate, for a real-valued input.

  The reference takes the maximum M of the 2^26 entries (a fold of max from -∞), the exponentials
  e_i = exp (x_i - M), their sum S (from 0), the maximum m2 of the differences x_i - M (again from -∞),
  the total S - 2^26 * m2, and returns e_j / total. When every entry is a real number the maximum of the
  finitely many entries is a real number, it bounds every entry and it is attained; so every difference
  x_i - M is at most 0 and one of them is 0, hence m2 = 0, the total is S, and entry j of the result is
  exp (x_j - M) / Σ_i exp (x_i - M). The precondition (|x_i| < +∞ for every i) says exactly that every
  entry is a real number.
-/
import proofs.«151102_j84679575208560_2_alg».proof.Proof.Gen.ReferenceIdeal.Read
import proofs.«151102_j84679575208560_2_alg».proof.Defs
import Idealize.ShloMosaic.Lib.ValueIdx
import Idealize.ShloMosaic.Lib.ReduceAll
import Idealize.ShloMosaic.PureOps.Ideal.Laws
import Idealize.ShloMosaic.Lib.Pipeline.Value

noncomputable section

namespace Cert.RefSide

open Idealize.ShloMosaic Idealize.ShloMosaic.ValueIdx
open scoped BigOperators

/-- The shape of the argument (one axis of 2^26 entries) and the shape of a scalar. -/
abbrev SN : Shape := ⟨1, ![67108864]⟩
abbrev S0 : Shape := ⟨0, ![]⟩

/-- A scalar has one index. -/
instance subsingleton_S0 : Subsingleton S0.Idx := ⟨fun _ _ => funext fun d => d.elim0⟩

/-! ## The maximum of finitely many reals, as a fold of max from -∞ -/

/-- Over a nonempty finite set, the fold of max from -∞ of real values is a real number, it bounds every
    value, and it is one of the values. -/
theorem fold_max_real {ι : Type} (s : Finset ι) (f : ι → EReal) (hf : ∀ i, ∃ r : ℝ, f i = (r : EReal))
    (hs : s.Nonempty) :
    ∃ M : ℝ, s.fold max ⊥ f = (M : EReal) ∧ (∀ i ∈ s, f i ≤ (M : EReal)) ∧ ∃ i0 ∈ s, f i0 = (M : EReal) := by
  have hle : ∀ i ∈ s, f i ≤ s.fold max ⊥ f := fun i hi =>
    (Finset.le_fold_max (f i)).2 (Or.inr ⟨i, hi, le_rfl⟩)
  obtain ⟨i1, hi1⟩ := hs
  obtain ⟨r1, hr1⟩ := hf i1
  have hbot : s.fold max ⊥ f ≠ ⊥ := by
    intro h
    have h' := hle i1 hi1
    rw [h, hr1] at h'
    exact absurd (le_bot_iff.1 h') (EReal.coe_ne_bot r1)
  have htop : s.fold max ⊥ f ≠ ⊤ := by
    refine ne_of_lt ((Finset.fold_max_lt ⊤).2 ⟨bot_lt_top, fun i _ => ?_⟩)
    obtain ⟨r, hr⟩ := hf i
    rw [hr]
    exact EReal.coe_lt_top r
  have hM : ((s.fold max ⊥ f).toReal : EReal) = s.fold max ⊥ f := EReal.coe_toReal htop hbot
  refine ⟨(s.fold max ⊥ f).toReal, hM.symm, fun i hi => ?_, ?_⟩
  · rw [hM]; exact hle i hi
  · rcases (Finset.le_fold_max (s.fold max ⊥ f)).1 le_rfl with h | ⟨i0, hi0, h0⟩
    · exact absurd (le_bot_iff.1 h) hbot
    · exact ⟨i0, hi0, by rw [hM]; exact le_antisymm (hle i0 hi0) h0⟩

/-- If a real M bounds every value and is one of them, the fold of max from -∞ of the differences from M is 0. -/
theorem fold_max_sub_eq_zero {ι : Type} (s : Finset ι) (f : ι → EReal) (hf : ∀ i, ∃ r : ℝ, f i = (r : EReal))
    (M : ℝ) (hle : ∀ i ∈ s, f i ≤ (M : EReal)) (i0 : ι) (hi0 : i0 ∈ s) (h0 : f i0 = (M : EReal)) :
    s.fold max ⊥ (fun i => f i - (M : EReal)) = 0 := by
  refine le_antisymm ((Finset.fold_max_le 0).2 ⟨bot_le, fun i hi => ?_⟩)
    ((Finset.le_fold_max 0).2 (Or.inr ⟨i0, hi0, ?_⟩))
  · obtain ⟨r, hr⟩ := hf i
    have hrM : r ≤ M := by
      have h := hle i hi
      rw [hr] at h
      exact EReal.coe_le_coe_iff.1 h
    show f i - (M : EReal) ≤ 0
    rw [hr, ← EReal.coe_sub, ← EReal.coe_zero]
    exact EReal.coe_le_coe_iff.2 (sub_nonpos.2 hrM)
  · show (0 : EReal) ≤ f i0 - (M : EReal)
    rw [h0, ← EReal.coe_sub, sub_self, EReal.coe_zero]

/-! ## The reference's two maximum reductions -/

/-- The pattern 0xFF800000 is -∞. -/
theorem ofBits_neg_inf : FloatOps.ofBits (F := Ideal) .f32 0xFF800000#32 = (⊥ : EReal) := by
  show Ideal.ofBits .f32 0xFF800000#32 = ⊥
  simp [Ideal.ofBits, Ideal.ieee]

/-- A maximum reduction of the vector to a scalar is the fold of max over every index, from the initial value. -/
theorem reduce_max_eq_fold (y : SN.Idx → EReal) (init : S0.Idx → EReal) (h : SN.ReducesTo [0] S0)
    (hu : 0 < S0.numel) (k : S0.Idx) :
    Host.reduce (FloatOps.maximumf (F := Ideal) (φ := .f32)) y init h hu k
      = (Finset.univ : Finset SN.Idx).fold max (init (Shape.Idx.first hu)) y := by
  rw [Host.reduce_eq_fold, Finset.filter_true_of_mem fun i _ => Subsingleton.elim _ _]
  rfl

/-! ## The reference read at an index -/

section Reference

open Cert.ReferenceIdeal.Read

/-- The indices of the argument are the numbers below 2^26. -/
def idxEquiv : Fin 67108864 ≃ SN.Idx where
  toFun j := ix1 j
  invFun i := i 0
  left_inv _ := rfl
  right_inv i := (eq_ix1 i).symm

/-- A sum over the argument's indices is the sum over the numbers below 2^26. -/
theorem sum_idx (g : SN.Idx → EReal) : ∑ i : SN.Idx, g i = ∑ j : Fin 67108864, g (ix1 j) :=
  (Equiv.sum_comp idxEquiv g).symm

variable (x : (⟨Cert.ReferenceIdeal.S67108864, .f32⟩ : BufTy).Contents (Elt Ideal))

/-- The first reduction is the fold of max from -∞ over every entry. -/
theorem v0_eq_fold (k : Cert.ReferenceIdeal.S_.Idx) :
    val_main_v0 (F := Ideal) x k = (Finset.univ : Finset SN.Idx).fold max ⊥ x := by
  unfold val_main_v0
  refine (reduce_max_eq_fold x _ _ _ k).trans ?_
  rw [val_main_cst_apply, ofBits_neg_inf]

/-- The second maximum reduction is the fold of max from -∞ over every difference. -/
theorem v5_eq_fold (k : Cert.ReferenceIdeal.S_.Idx) :
    val_main_v5 (F := Ideal) x k = (Finset.univ : Finset SN.Idx).fold max ⊥ (val_main_v2 (F := Ideal) x) := by
  unfold val_main_v5
  refine (reduce_max_eq_fold _ _ _ _ k).trans ?_
  rw [val_main_cst_1_apply, ofBits_neg_inf]

/-- Once the first maximum is a real M: the differences, the exponentials and their sum. -/
theorem v2_apply (M : ℝ) (h0 : ∀ k, val_main_v0 (F := Ideal) x k = (M : EReal)) (i : SN.Idx) :
    val_main_v2 (F := Ideal) x i = x i - (M : EReal) := by
  rw [val_main_v2_apply, val_main_v1_apply, h0]
  rfl

theorem v3_apply (M : ℝ) (h0 : ∀ k, val_main_v0 (F := Ideal) x k = (M : EReal)) (i : SN.Idx) :
    val_main_v3 (F := Ideal) x i = Ideal.exp (x i - (M : EReal)) := by
  rw [val_main_v3_apply, v2_apply x M h0]
  rfl

theorem v4_apply (M : ℝ) (h0 : ∀ k, val_main_v0 (F := Ideal) x k = (M : EReal)) (k : Cert.ReferenceIdeal.S_.Idx) :
    val_main_v4 (F := Ideal) x k = ∑ j : Fin 67108864, Ideal.exp (x (ix1 j) - (M : EReal)) := by
  rw [val_main_v4_apply, val_main_cst_0_apply]
  show Ideal.ofBits .f32 0x00000000#32 + _ = _
  rw [Ideal.ofBits_zero_f32, zero_add]
  refine (sum_idx _).trans (Finset.sum_congr rfl fun j _ => ?_)
  exact v3_apply x M h0 (ix1 j)

/-- The reference's result, entry by entry, for a real-valued input -/
theorem ref_value (hx : ∀ i, ∃ r : ℝ, x i = (r : EReal)) :
    ∃ M : ℝ, ∀ j : Fin 67108864, Cert.ReferenceIdeal.Read.val_main_v9 (F := Ideal) x (ix1 j)
      = Ideal.div (Ideal.exp (x (ix1 j) - (M : EReal))) (∑ i : Fin 67108864, Ideal.exp (x (ix1 i) - (M : EReal))) := by
  obtain ⟨M, hM, hle, i0, hi0, h0⟩ :=
    fold_max_real (Finset.univ : Finset SN.Idx) x hx ⟨ix1 ⟨0, by omega⟩, Finset.mem_univ _⟩
  have hv0 : ∀ k, val_main_v0 (F := Ideal) x k = (M : EReal) := fun k => (v0_eq_fold x k).trans hM
  have hv5 : ∀ k, val_main_v5 (F := Ideal) x k = 0 := fun k => by
    rw [v5_eq_fold, funext (v2_apply x M hv0)]
    exact fold_max_sub_eq_zero _ x hx M hle i0 hi0 h0
  refine ⟨M, fun j => ?_⟩
  rw [val_main_v9_apply, val_main_v8_apply, val_main_v7_apply, val_main_v6_apply, v3_apply x M hv0,
    v4_apply x M hv0, hv5]
  show Ideal.div _ (_ - _ * (0 : EReal)) = _
  rw [mul_zero, sub_zero]

end Reference

/-! ## The precondition says that every entry is a real number -/

/-- An extended real whose absolute value is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The pattern 0x7F800000 is +∞. -/
theorem ofBits_pos_inf : Ideal.ofBits .f32 0x7F800000#32 = (⊤ : EReal) := by
  simp [Ideal.ofBits, Ideal.ieee]

/-- An extended real whose absolute value compares below the pattern of +∞ is a real number. -/
theorem real_of_cmp (a : EReal)
    (h : Ideal.cmp .olt (max a (-a)) (Ideal.ofBits .f32 0x7F800000#32) = 1#1) : ∃ r : ℝ, a = (r : EReal) := by
  rw [ofBits_pos_inf] at h
  by_cases hlt : max a (-a) < ⊤
  · exact real_of_abs_lt_top a hlt
  · have h' : BitVec.ofBool (decide (max a (-a) < ⊤)) = 1#1 := h
    rw [decide_eq_false hlt] at h'
    exact absurd h' (by decide)

/-- Finiteness out of the precondition: every entry of the argument is a real number -/
theorem real_of_pre [hP : Cert.Pre_finite_inputs.Facts] (x : FVec Ideal Cert.Pre_finite_inputs.S67108864 .f32)
    (h : Cert.Pre_finite_inputs.fn (F := Ideal) x = (fun _ => 1#1)) : ∀ i, ∃ r : ℝ, x i = (r : EReal) := by
  intro i
  have h1 := congrFun h ValueIdx.ix0
  dsimp only [Cert.Pre_finite_inputs.fn] at h1
  exact real_of_cmp (x i) (Host.reduce_andi_all _ _ _ _ _ h1 i)

end Cert.RefSide

end
-- ==== Proof.lean ====
/-
  The certificate: a two-pass softmax of 2^26 numbers on a TPU against the plain formula.

  The kernel program reshapes the argument to 524288 x 128, runs a reduction kernel over a 2 x 32 grid (each half keeps a
  running maximum and a running sum of exponentials over its 32 tiles of 8192 rows, rescaling the sum whenever the
  maximum rises), merges the two halves' pairs with a few scalar operations, runs a second kernel over 64 tiles that
  writes exp (x - m) times the reciprocal of the merged sum, and reshapes back. The reference subtracts the maximum,
  exponentiates, and divides by the sum (less 2^26 times the maximum of the shifted vector, which is zero).

  FRAMES. Each kernel program's run is built from its two regions and three stretches of host operations; the reduction
  kernel's region carries its two scratch buffers from point to point at named contents. The same text proves the
  word-level program's frame and the idealized program's, at their two instances. The reference's frame is its run.

  VALUES, at the ideal instance, for finite inputs. The idealization rewrote nothing. Read on the extended reals, the
  kernel program's entry j is exp (x j - m) * (1 / l) with l the sum of exp (x i - m) over all i, whatever real number m
  the merged maximum is (the running maximum starts from a finite floor, so m need not be the true maximum); the
  reference's entry is exp (x j - M) / sum_i exp (x i - M). Both are the softmax of x: a common factor exp (M - m) cancels.
  Finiteness of the inputs is what makes every quantity a real number, so that the rescaling law
  exp (a - m) * exp (m - m') = exp (a - m') and the cancellation hold.
-/
import proofs.«151102_j84679575208560_2_alg».proof.Defs
import proofs.«151102_j84679575208560_2_alg».proof.Proof.Gen.Kernel
import proofs.«151102_j84679575208560_2_alg».proof.Proof.Gen.KernelIdeal
import proofs.«151102_j84679575208560_2_alg».proof.Proof.Gen.ReferenceIdeal
import proofs.«151102_j84679575208560_2_alg».proof.Proof.Gen.Pre_finite_inputs
import proofs.«151102_j84679575208560_2_alg».proof.Proof.Kernel.Run
import proofs.«151102_j84679575208560_2_alg».proof.Proof.KernelIdeal.Value
import proofs.«151102_j84679575208560_2_alg».proof.Proof.RefSide

noncomputable section

namespace Cert.Proof

open Idealize.ShloMosaic Idealize.SL.Sem Idealize.ShloMosaic.TcCoe Idealize.ShloMosaic.ValueIdx

/-- The word-level kernel program runs to the end, faults nowhere and leaves its argument unchanged. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For finite inputs the two idealized programs end with equal results, entry by entry: the softmax of the argument. -/
theorem algebraic : Cert.algebraic_KernelIdeal_ReferenceIdeal := by
  intro m ρ m' ρ' hpre hagree
  have hx : ∀ (c : Dev Cert.KernelIdeal.nD) (i : Cert.KernelIdeal.S67108864.Idx),
      ∃ r : ℝ, Cert.KernelIdeal.Chain.arg m c i = (r : EReal) :=
    fun c => Cert.RefSide.real_of_pre _ (hpre c)
  have hM : ∀ c : Dev Cert.KernelIdeal.nD, ∃ M : ℝ, ∀ j : Fin 67108864,
      Cert.ReferenceIdeal.Read.val_main_v9 (F := Ideal) (Cert.KernelIdeal.Chain.arg m c) (ix1 j)
        = Ideal.div (Ideal.exp (Cert.KernelIdeal.Chain.arg m c (ix1 j) - (M : EReal)))
            (∑ i : Fin 67108864, Ideal.exp (Cert.KernelIdeal.Chain.arg m c (ix1 i) - (M : EReal))) :=
    fun c => Cert.RefSide.ref_value _ (hx c)
  choose M hM using hM
  refine ⟨fun c => Cert.KernelIdeal.Hand.B5 m ρ c (Proc.devRef .tc Cert.KernelIdeal.main_v22), ?_, ?_⟩
  · exact (θ_run Cert.KernelIdeal.defs _ _).mono
      (fun r h c => ⟨h c _ (Cert.KernelIdeal.Hand.mem_uc Cert.KernelIdeal.main_v22 (by decide)),
        (h c _ (Cert.KernelIdeal.Hand.mem_uc Cert.KernelIdeal.main_arg0 (by decide))).trans (Cert.KernelIdeal.Hand.B5_main_arg0 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [hagree c, Cert.ReferenceIdeal.Read.val_main_v9_eq]
    funext i
    obtain ⟨j, rfl⟩ : ∃ j : Fin 67108864, i = ix1 j := ⟨i 0, eq_ix1 i⟩
    exact (hM c j).trans (Cert.KernelIdeal.Value.kernel_value m ρ c (hx c) (M c) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
